-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v0_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  main_v8
-- ==== Kernel.lean ====
abbrev S16x1x1024x1024 : Shape := ⟨4, ![16, 1, 1024, 1024]⟩
abbrev S5 : Shape := ⟨1, ![5]⟩
abbrev S16x1x128 : Shape := ⟨3, ![16, 1, 128]⟩
abbrev S1x1x512x1024 : Shape := ⟨4, ![1, 1, 512, 1024]⟩
abbrev S1x1x128 : Shape := ⟨3, ![1, 1, 128]⟩
abbrev S1x1x512 : Shape := ⟨3, ![1, 1, 512]⟩
abbrev S1x1x512x1 : Shape := ⟨4, ![1, 1, 512, 1]⟩
abbrev S1x1x1 : Shape := ⟨3, ![1, 1, 1]⟩
abbrev S1x1x1x1 : Shape := ⟨4, ![1, 1, 1, 1]⟩
abbrev S16x1x5 : Shape := ⟨3, ![16, 1, 5]⟩
abbrev S16x5 : Shape := ⟨2, ![16, 5]⟩
abbrev S_ : Shape := ⟨0, ![]⟩

abbrev nBuf : Space → Nat
  | .hbm => 28
  | .vmem => 10
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S5, .f32⟩
  | .hbm, ⟨3, _⟩ => ⟨S16x1x1024x1024, .f32⟩
  | .hbm, ⟨4, _⟩ => ⟨S16x1x128, .f32⟩
  | .hbm, ⟨5, _⟩ => ⟨S16x1x128, .f32⟩
  | .hbm, ⟨6, _⟩ => ⟨S16x1x5, .f32⟩
  | .hbm, ⟨7, _⟩ => ⟨S16x5, .f32⟩
  | .hbm, ⟨8, _⟩ => ⟨S_, .f32⟩
  | .hbm, ⟨9, _⟩ => ⟨S5, .f32⟩
  | .hbm, ⟨10, _⟩ => ⟨S16x1x5, .f32⟩
  | .hbm, ⟨11, _⟩ => ⟨S16x5, .f32⟩
  | .hbm, ⟨12, _⟩ => ⟨S_, .f32⟩
  | .hbm, ⟨13, _⟩ => ⟨S5, .f32⟩
  | .hbm, ⟨14, _⟩ => ⟨S_, .f32⟩
  | .hbm, ⟨15, _⟩ => ⟨S5, .f32⟩
  | .hbm, ⟨16, _⟩ => ⟨S5, .f32⟩
  | .hbm, ⟨17, _⟩ => ⟨S_, .f32⟩
  | .hbm, ⟨18, _⟩ => ⟨S5, .f32⟩
  | .hbm, ⟨19, _⟩ => ⟨S5, .i1⟩
  | .hbm, ⟨20, _⟩ => ⟨S5, .f32⟩
  | .hbm, ⟨21, _⟩ => ⟨S_, .f32⟩
  | .hbm, ⟨22, _⟩ => ⟨S_, .f32⟩
  | .hbm, ⟨23, _⟩ => ⟨S5, .f32⟩
  | .hbm, ⟨24, _⟩ => ⟨S5, .f32⟩
  | .hbm, ⟨25, _⟩ => ⟨S5, .f32⟩
  | .hbm, ⟨26, _⟩ => ⟨S_, .f32⟩
  | .hbm, ⟨27, _⟩ => ⟨S_, .f32⟩
  | .local _ .vmem, ⟨0, _⟩ => ⟨S1x1x512x1024, .f32⟩
  | .local _ .vmem, ⟨1, _⟩ => ⟨S1x1x512x1024, .f32⟩
  | .local _ .vmem, ⟨2, _⟩ => ⟨S1x1x512x1024, .f32⟩
  | .local _ .vmem, ⟨3, _⟩ => ⟨S1x1x512x1024, .f32⟩
  | .local _ .vmem, ⟨4, _⟩ => ⟨S1x1x512x1024, .f32⟩
  | .local _ .vmem, ⟨5, _⟩ => ⟨S1x1x512x1024, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  iota_S1x1x128_d2_w32 : S1x1x128.Iotas .tc 32 [2]
  natLt_1_32 : 1 < 32
  reduces_S1x1x512x1024_S1x1x512 : S1x1x512x1024.Reduces [3] S1x1x512
  shapeCasts_S1x1x512_S1x1x512x1 : S1x1x512.ShapeCasts S1x1x512x1
  reduces_S1x1x512x1_S1x1x1 : S1x1x512x1.Reduces [2] S1x1x1
  shapeCasts_S1x1x1_S1x1x1x1 : S1x1x1.ShapeCasts S1x1x1x1
  inpos_S1x1x1x1_p0_0_0_0 : ∀ a, (![0, 0, 0, 0] : Fin 4 → Nat) a < S1x1x1x1.size a
  shapeCasts_S1x1x128_S1x1x128 : S1x1x128.ShapeCasts S1x1x128
  slices_S16x1x128_S16x1x5_0_0_0 : S16x1x128.Slices ![0, 0, 0] S16x1x5
  shapeCasts_S16x1x5_S16x5 : S16x1x5.ShapeCasts S16x5
  reducesTo_S16x5_S5_d0 : S16x5.ReducesTo [0] S5
  h_S_ : 0 < S_.numel
  bcast_S_S5 : S_.BroadcastsInDim S5 (![] : Fin 0 → Fin S5.rank)
  reducesTo_S5_S_d0 : S5.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x1024.size a ≤ S16x1x1024x1024.size a
  hwx0_0 : ∀ i : grid0.Coords, EltTy.bits .f32 = 32 ∨ (Rect.block (s := S16x1x1024x1024) S1x1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x1024.size a ≤ S16x1x1024x1024.size a
  hwx0_1 : ∀ i : grid0.Coords, EltTy.bits .f32 = 32 ∨ (Rect.block (s := S16x1x1024x1024) S1x1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x1024.size a ≤ S16x1x1024x1024.size a
  hwx0_2 : ∀ i : grid0.Coords, EltTy.bits .f32 = 32 ∨ (Rect.block (s := S16x1x1024x1024) S1x1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

abbrev win0_0 : Pipeline.Window sig grid0 :=
  Pipeline.Window.ofSpec (Memref.whole main_arg0) S1x1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩
abbrev S1 : Shape := ⟨1, ![1]⟩
abbrev S5 : Shape := ⟨1, ![5]⟩

abbrev nBuf : Space → Nat
  | .hbm => 178
  | .vmem => 0
  | .smem => 0
  | _ => 0

abbrev hbmTy0_0 (i : Nat) : BufTy := match i % 128 with
  | 0 => ⟨S16x1x1024x1024, .f32⟩
  | 1 => ⟨S16x1x1024x1024, .f32⟩
  | 2 => ⟨S16x1x1024x1024, .f32⟩
  | 3 => ⟨S16x1x1024x1024, .f32⟩
  | 4 => ⟨S_, .i32⟩
  | 5 => ⟨S16x1x1024x1024, .i32⟩
  | 6 => ⟨S_, .f32⟩
  | 7 => ⟨S16x1x1024x1024, .f32⟩
  | 8 => ⟨S16x1x1024x1024, .i1⟩
  | 9 => ⟨S_, .f32⟩
  | 10 => ⟨S16x1x1024x1024, .f32⟩
  | 11 => ⟨S16x1x1024x1024, .i1⟩
  | 12 => ⟨S16x1x1024x1024, .i1⟩
  | 13 => ⟨S_, .i32⟩
  | 14 => ⟨S16x1x1024x1024, .i32⟩
  | 15 => ⟨S16x1x1024x1024, .i32⟩
  | 16 => ⟨S16x1x1024x1024, .i32⟩
  | 17 => ⟨S_, .i32⟩
  | 18 => ⟨S_, .i32⟩
  | 19 => ⟨S_, .f32⟩
  | 20 => ⟨S_, .f32⟩
  | 21 => ⟨S16x1x1024x1024, .f32⟩
  | 22 => ⟨S16x1x1024x1024, .f32⟩
  | 23 => ⟨S_, .f32⟩
  | 24 => ⟨S_, .f32⟩
  | 25 => ⟨S_, .i32⟩
  | 26 => ⟨S_, .i32⟩
  | 27 => ⟨S_, .f32⟩
  | 28 => ⟨S_, .i32⟩
  | 29 => ⟨S_, .i1⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S16x1x1024x1024, .f32⟩
  | 38 => ⟨S16x1x1024x1024, .i1⟩
  | 39 => ⟨S_, .f32⟩
  | 40 => ⟨S16x1x1024x1024, .f32⟩
  | 41 => ⟨S16x1x1024x1024, .i1⟩
  | 42 => ⟨S16x1x1024x1024, .i1⟩
  | 43 => ⟨S_, .i32⟩
  | 44 => ⟨S16x1x1024x1024, .i32⟩
  | 45 => ⟨S16x1x1024x1024, .i32⟩
  | 46 => ⟨S16x1x1024x1024, .i32⟩
  | 47 => ⟨S_, .i32⟩
  | 48 => ⟨S_, .i32⟩
  | 49 => ⟨S_, .f32⟩
  | 50 => ⟨S_, .f32⟩
  | 51 => ⟨S16x1x1024x1024, .f32⟩
  | 52 => ⟨S16x1x1024x1024, .f32⟩
  | 53 => ⟨S_, .f32⟩
  | 54 => ⟨S_, .f32⟩
  | 55 => ⟨S_, .i32⟩
  | 56 => ⟨S_, .i32⟩
  | 57 => ⟨S_, .f32⟩
  | 58 => ⟨S_, .i32⟩
  | 59 => ⟨S_, .i1⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S16x1x1024x1024, .f32⟩
  | 68 => ⟨S16x1x1024x1024, .i1⟩
  | 69 => ⟨S_, .f32⟩
  | 70 => ⟨S16x1x1024x1024, .f32⟩
  | 71 => ⟨S16x1x1024x1024, .i1⟩
  | 72 => ⟨S16x1x1024x1024, .i1⟩
  | 73 => ⟨S_, .i32⟩
  | 74 => ⟨S16x1x1024x1024, .i32⟩
  | 75 => ⟨S16x1x1024x1024, .i32⟩
  | 76 => ⟨S16x1x1024x1024, .i32⟩
  | 77 => ⟨S_, .i32⟩
  | 78 => ⟨S_, .i32⟩
  | 79 => ⟨S_, .f32⟩
  | 80 => ⟨S_, .f32⟩
  | 81 => ⟨S16x1x1024x1024, .f32⟩
  | 82 => ⟨S16x1x1024x1024, .f32⟩
  | 83 => ⟨S_, .f32⟩
  | 84 => ⟨S_, .f32⟩
  | 85 => ⟨S_, .i32⟩
  | 86 => ⟨S_, .i32⟩
  | 87 => ⟨S_, .f32⟩
  | 88 => ⟨S_, .i32⟩
  | 89 => ⟨S_, .i1⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S16x1x1024x1024, .f32⟩
  | 98 => ⟨S16x1x1024x1024, .i1⟩
  | 99 => ⟨S_, .f32⟩
  | 100 => ⟨S16x1x1024x1024, .f32⟩
  | 101 => ⟨S16x1x1024x1024, .i1⟩
  | 102 => ⟨S16x1x1024x1024, .i1⟩
  | 103 => ⟨S_, .i32⟩
  | 104 => ⟨S16x1x1024x1024, .i32⟩
  | 105 => ⟨S16x1x1024x1024, .i32⟩
  | 106 => ⟨S16x1x1024x1024, .i32⟩
  | 107 => ⟨S_, .i32⟩
  | 108 => ⟨S_, .i32⟩
  | 109 => ⟨S_, .f32⟩
  | 110 => ⟨S_, .f32⟩
  | 111 => ⟨S16x1x1024x1024, .f32⟩
  | 112 => ⟨S16x1x1024x1024, .f32⟩
  | 113 => ⟨S_, .f32⟩
  | 114 => ⟨S_, .f32⟩
  | 115 => ⟨S_, .i32⟩
  | 116 => ⟨S_, .i32⟩
  | 117 => ⟨S_, .f32⟩
  | 118 => ⟨S_, .i32⟩
  | 119 => ⟨S_, .i1⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S16x1x1024x1024, .f32⟩
  | _ => ⟨S16x1x1024x1024, .f32⟩

abbrev hbmTy0_1 (i : Nat) : BufTy := match i % 128 with
  | 0 => ⟨S16x1x1024x1024, .i1⟩
  | 1 => ⟨S_, .f32⟩
  | 2 => ⟨S16x1x1024x1024, .f32⟩
  | 3 => ⟨S16x1x1024x1024, .i1⟩
  | 4 => ⟨S16x1x1024x1024, .i1⟩
  | 5 => ⟨S_, .i32⟩
  | 6 => ⟨S16x1x1024x1024, .i32⟩
  | 7 => ⟨S16x1x1024x1024, .i32⟩
  | 8 => ⟨S16x1x1024x1024, .i32⟩
  | 9 => ⟨S_, .i32⟩
  | 10 => ⟨S_, .i32⟩
  | 11 => ⟨S_, .f32⟩
  | 12 => ⟨S_, .f32⟩
  | 13 => ⟨S16x1x1024x1024, .f32⟩
  | 14 => ⟨S16x1x1024x1024, .f32⟩
  | 15 => ⟨S_, .f32⟩
  | 16 => ⟨S_, .f32⟩
  | 17 => ⟨S_, .i32⟩
  | 18 => ⟨S_, .i32⟩
  | 19 => ⟨S_, .f32⟩
  | 20 => ⟨S_, .i32⟩
  | 21 => ⟨S_, .i1⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S16x1x1024x1024, .f32⟩
  | 35 => ⟨S_, .f32⟩
  | 36 => ⟨S16x1x1024x1024, .f32⟩
  | 37 => ⟨S16x1x1024x1024, .f32⟩
  | 38 => ⟨S_, .f32⟩
  | 39 => ⟨S16x1x1024x1024, .f32⟩
  | 40 => ⟨S16x1x1024x1024, .f32⟩
  | 41 => ⟨S_, .f32⟩
  | 42 => ⟨S16x1x1024x1024, .f32⟩
  | 43 => ⟨S16x1x1024x1024, .f32⟩
  | 44 => ⟨S1, .f32⟩
  | 45 => ⟨S1, .f32⟩
  | 46 => ⟨S1, .f32⟩
  | 47 => ⟨S1, .f32⟩
  | 48 => ⟨S1, .f32⟩
  | 49 => ⟨S5, .f32⟩
  | _ => ⟨S16x1x1024x1024, .f32⟩

abbrev hbmTy (i : Nat) : BufTy := match i / 128 with
  | 0 => hbmTy0_0 i
  | 1 => hbmTy0_1 i
  | _ => ⟨S16x1x1024x1024, .f32⟩

abbrev bufTy : (tb : Table) → Fin (tcTables nBuf tb) → BufTy
  | .hbm, ⟨i, _⟩ => hbmTy i
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_cst_7 : Ref sig .tc := ⟨.hbm, 31, rfl⟩
abbrev main_call2_v0 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_cst_9 : Ref sig .tc := ⟨.hbm, 36, rfl⟩
abbrev main_v19 : Ref sig .tc := ⟨.hbm, 37, rfl⟩
abbrev main_v20 : Ref sig .tc := ⟨.hbm, 38, rfl⟩
abbrev main_cst_10 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_11 : Ref sig .tc := ⟨.hbm, 43, rfl⟩
abbrev main_call3_v0 : Ref sig .tc := ⟨.hbm, 44, rfl⟩
abbrev main_v24 : Ref sig .tc := ⟨.hbm, 45, rfl⟩
abbrev main_v25 : Ref sig .tc := ⟨.hbm, 46, rfl⟩
abbrev main_c_12 : Ref sig .tc := ⟨.hbm, 47, rfl⟩
abbrev main_v26 : Ref sig .tc := ⟨.hbm, 48, rfl⟩
abbrev main_cst_13 : Ref sig .tc := ⟨.hbm, 49, rfl⟩
abbrev main_call4_v0 : Ref sig .tc := ⟨.hbm, 50, rfl⟩
abbrev main_call4_v1 : Ref sig .tc := ⟨.hbm, 51, rfl⟩
abbrev main_v27 : Ref sig .tc := ⟨.hbm, 52, rfl⟩
abbrev main_cst_14 : Ref sig .tc := ⟨.hbm, 53, rfl⟩
abbrev main_v28 : Ref sig .tc := ⟨.hbm, 54, rfl⟩
abbrev main_c_15 : Ref sig .tc := ⟨.hbm, 55, rfl⟩
abbrev main_v29 : Ref sig .tc := ⟨.hbm, 56, rfl⟩
abbrev main_v30 : Ref sig .tc := ⟨.hbm, 57, rfl⟩
abbrev main_c_16 : Ref sig .tc := ⟨.hbm, 58, rfl⟩
abbrev main_v31 : Ref sig .tc := ⟨.hbm, 59, rfl⟩
abbrev main_v32 : Ref sig .tc := ⟨.hbm, 60, rfl⟩
abbrev main_cst_17 : Ref sig .tc := ⟨.hbm, 61, rfl⟩
abbrev main_call5_v0 : Ref sig .tc := ⟨.hbm, 62, rfl⟩
abbrev main_v33 : Ref sig .tc := ⟨.hbm, 63, rfl⟩
abbrev main_cst_18 : Ref sig .tc := ⟨.hbm, 64, rfl⟩
abbrev main_v34 : Ref sig .tc := ⟨.hbm, 65, rfl⟩
abbrev main_cst_19 : Ref sig .tc := ⟨.hbm, 66, rfl⟩
abbrev main_v35 : Ref sig .tc := ⟨.hbm, 67, rfl⟩
abbrev main_v36 : Ref sig .tc := ⟨.hbm, 68, rfl⟩
abbrev main_cst_20 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_21 : Ref sig .tc := ⟨.hbm, 73, rfl⟩
abbrev main_call6_v0 : Ref sig .tc := ⟨.hbm, 74, rfl⟩
abbrev main_v40 : Ref sig .tc := ⟨.hbm, 75, rfl⟩
abbrev main_v41 : Ref sig .tc := ⟨.hbm, 76, rfl⟩
abbrev main_c_22 : Ref sig .tc := ⟨.hbm, 77, rfl⟩
abbrev main_v42 : Ref sig .tc := ⟨.hbm, 78, rfl⟩
abbrev main_cst_23 : Ref sig .tc := ⟨.hbm, 79, rfl⟩
abbrev main_call7_v0 : Ref sig .tc := ⟨.hbm, 80, rfl⟩
abbrev main_call7_v1 : Ref sig .tc := ⟨.hbm, 81, rfl⟩
abbrev main_v43 : Ref sig .tc := ⟨.hbm, 82, rfl⟩
abbrev main_cst_24 : Ref sig .tc := ⟨.hbm, 83, rfl⟩
abbrev main_v44 : Ref sig .tc := ⟨.hbm, 84, rfl⟩
abbrev main_c_25 : Ref sig .tc := ⟨.hbm, 85, rfl⟩
abbrev main_v45 : Ref sig .tc := ⟨.hbm, 86, rfl⟩
abbrev main_v46 : Ref sig .tc := ⟨.hbm, 87, rfl⟩
abbrev main_c_26 : Ref sig .tc := ⟨.hbm, 88, rfl⟩
abbrev main_v47 : Ref sig .tc := ⟨.hbm, 89, rfl⟩
abbrev main_v48 : Ref sig .tc := ⟨.hbm, 90, rfl⟩
abbrev main_cst_27 : Ref sig .tc := ⟨.hbm, 91, rfl⟩
abbrev main_call8_v0 : Ref sig .tc := ⟨.hbm, 92, rfl⟩
abbrev main_v49 : Ref sig .tc := ⟨.hbm, 93, rfl⟩
abbrev main_cst_28 : Ref sig .tc := ⟨.hbm, 94, rfl⟩
abbrev main_v50 : Ref sig .tc := ⟨.hbm, 95, rfl⟩
abbrev main_cst_29 : Ref sig .tc := ⟨.hbm, 96, rfl⟩
abbrev main_v51 : Ref sig .tc := ⟨.hbm, 97, rfl⟩
abbrev main_v52 : Ref sig .tc := ⟨.hbm, 98, rfl⟩
abbrev main_cst_30 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_31 : Ref sig .tc := ⟨.hbm, 103, rfl⟩
abbrev main_call9_v0 : Ref sig .tc := ⟨.hbm, 104, rfl⟩
abbrev main_v56 : Ref sig .tc := ⟨.hbm, 105, rfl⟩
abbrev main_v57 : Ref sig .tc := ⟨.hbm, 106, rfl⟩
abbrev main_c_32 : Ref sig .tc := ⟨.hbm, 107, rfl⟩
abbrev main_v58 : Ref sig .tc := ⟨.hbm, 108, rfl⟩
abbrev main_cst_33 : Ref sig .tc := ⟨.hbm, 109, rfl⟩
abbrev main_call10_v0 : Ref sig .tc := ⟨.hbm, 110, rfl⟩
abbrev main_call10_v1 : Ref sig .tc := ⟨.hbm, 111, rfl⟩
abbrev main_v59 : Ref sig .tc := ⟨.hbm, 112, rfl⟩
abbrev main_cst_34 : Ref sig .tc := ⟨.hbm, 113, rfl⟩
abbrev main_v60 : Ref sig .tc := ⟨.hbm, 114, rfl⟩
abbrev main_c_35 : Ref sig .tc := ⟨.hbm, 115, rfl⟩
abbrev main_v61 : Ref sig .tc := ⟨.hbm, 116, rfl⟩
abbrev main_v62 : Ref sig .tc := ⟨.hbm, 117, rfl⟩
abbrev main_c_36 : Ref sig .tc := ⟨.hbm, 118, rfl⟩
abbrev main_v63 : Ref sig .tc := ⟨.hbm, 119, rfl⟩
abbrev main_v64 : Ref sig .tc := ⟨.hbm, 120, rfl⟩
abbrev main_cst_37 : Ref sig .tc := ⟨.hbm, 121, rfl⟩
abbrev main_call11_v0 : Ref sig .tc := ⟨.hbm, 122, rfl⟩
abbrev main_v65 : Ref sig .tc := ⟨.hbm, 123, rfl⟩
abbrev main_cst_38 : Ref sig .tc := ⟨.hbm, 124, rfl⟩
abbrev main_v66 : Ref sig .tc := ⟨.hbm, 125, rfl⟩
abbrev main_cst_39 : Ref sig .tc := ⟨.hbm, 126, rfl⟩
abbrev main_v67 : Ref sig .tc := ⟨.hbm, 127, rfl⟩
abbrev main_v68 : Ref sig .tc := ⟨.hbm, 128, rfl⟩
abbrev main_cst_40 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_c_41 : Ref sig .tc := ⟨.hbm, 133, rfl⟩
abbrev main_call12_v0 : Ref sig .tc := ⟨.hbm, 134, rfl⟩
abbrev main_v72 : Ref sig .tc := ⟨.hbm, 135, rfl⟩
abbrev main_v73 : Ref sig .tc := ⟨.hbm, 136, rfl⟩
abbrev main_c_42 : Ref sig .tc := ⟨.hbm, 137, rfl⟩
abbrev main_v74 : Ref sig .tc := ⟨.hbm, 138, rfl⟩
abbrev main_cst_43 : Ref sig .tc := ⟨.hbm, 139, rfl⟩
abbrev main_call13_v0 : Ref sig .tc := ⟨.hbm, 140, rfl⟩
abbrev main_call13_v1 : Ref sig .tc := ⟨.hbm, 141, rfl⟩
abbrev main_v75 : Ref sig .tc := ⟨.hbm, 142, rfl⟩
abbrev main_cst_44 : Ref sig .tc := ⟨.hbm, 143, rfl⟩
abbrev main_v76 : Ref sig .tc := ⟨.hbm, 144, rfl⟩
abbrev main_c_45 : Ref sig .tc := ⟨.hbm, 145, rfl⟩
abbrev main_v77 : Ref sig .tc := ⟨.hbm, 146, rfl⟩
abbrev main_v78 : Ref sig .tc := ⟨.hbm, 147, rfl⟩
abbrev main_c_46 : Ref sig .tc := ⟨.hbm, 148, rfl⟩
abbrev main_v79 : Ref sig .tc := ⟨.hbm, 149, rfl⟩
abbrev main_v80 : Ref sig .tc := ⟨.hbm, 150, rfl⟩
abbrev main_cst_47 : Ref sig .tc := ⟨.hbm, 151, rfl⟩
abbrev main_call14_v0 : Ref sig .tc := ⟨.hbm, 152, rfl⟩
abbrev main_v81 : Ref sig .tc := ⟨.hbm, 153, rfl⟩
abbrev main_cst_48 : Ref sig .tc := ⟨.hbm, 154, rfl⟩
abbrev main_v82 : Ref sig .tc := ⟨.hbm, 155, rfl⟩
abbrev main_cst_49 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_cst_50 : Ref sig .tc := ⟨.hbm, 163, rfl⟩
abbrev main_v89 : Ref sig .tc := ⟨.hbm, 164, rfl⟩
abbrev main_v90 : Ref sig .tc := ⟨.hbm, 165, rfl⟩
abbrev main_cst_51 : Ref sig .tc := ⟨.hbm, 166, rfl⟩
abbrev main_v91 : Ref sig .tc := ⟨.hbm, 167, rfl⟩
abbrev main_v92 : Ref sig .tc := ⟨.hbm, 168, rfl⟩
abbrev main_cst_52 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩

abbrev nD : Nat := 1
abbrev τ : Topo := Topo.v7x

variable {F : FTy → Type} [FloatOps F]

class Facts₀ : Prop where
  bcast_S_S16x1x1024x1024 : S_.BroadcastsInDim S16x1x1024x1024 (![] : Fin 0 → Fin S16x1x1024x1024.rank)
  natLt_1_32 : 1 < 32
  reducesTo_S16x1x1024x1024_S_d0_1_2_3 : S16x1x1024x1024.ReducesTo [0, 1, 2, 3] S_
  h_S_ : 0 < S_.numel
  bcast_S_S1 : S_.BroadcastsInDim S1 (![] : Fin 0 → Fin S1.rank)
  concatenates_S1_S1_S1_S1_S1_S5_d0 : Shape.Concatenates [S1, S1, S1, S1, S1] S5 0

variable [Facts₀]

class Facts : Prop extends Facts₀ where

variable [Facts]
-- ==== Proof.Pieces.lean ====
import proofs.«155842_j2808908612055_2_alg».proof.Proof.Gen.KernelIdeal.Frame
import Idealize.ShloMosaic.Lib.Pipeline.Value
import Idealize.ShloMosaic.Lib.Tactic
import Idealize.ShloMosaic.Lib.ValueIdx

/-!
  What one grid point of the kernel leaves in its three output blocks, as pure functions of the blocks it loads.

  The body at a point loads the two input blocks `x0` (the predicted image's rows) and `x1` (the real image's rows)
  and writes
    * the class-id block: a pointwise function of `x1` (`maskBlk`);
    * the per-class COUNT lanes: the lanes it finds (`prev`) plus, on lane `k < 5`, the number of elements of
      `x1` in class `k`'s range (`cntAcc`);
    * the per-class SUM lanes: the lanes it finds plus, on lane `k < 5`, the sum of `|x0 - x1|` over those
      elements (`sumAcc`).
  At the first row tile of a batch (case A) the lanes found are the zero lanes the body has just stored; at the
  second (case B) they are what the first left. So after the second tile the two accumulator blocks hold
  `acc (second tile) (acc (first tile) 0)`.
-/

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The lane numbers 0 … 127 of an accumulator block. -/
abbrev lanes : IVec S1x1x128 32 := iota .tc S1x1x128 32 [2] iota_S1x1x128_d2_w32

/-- The constant 0.5 the last class's lower bound is. -/
abbrev half : F .f32 := FloatOps.ofBits .f32 0x3F000000#32

/-- The class-id block: each element's class number (the last range that holds it wins), rescaled `2·id/4 − 1`. -/
def maskBlk (x1 : Vec F S1x1x512x1024 .f32) : Vec F S1x1x512x1024 .f32 :=
  k0_pay1 (k0_pay34 x1 (k0_pay24 x1 (k0_pay19 x1 (k0_pay8 x1))) half)

/-- The count lanes after a point: the lanes found plus the five per-class counts of the block, each on its lane. -/
def cntAcc (x1 : Vec F S1x1x512x1024 .f32) (prev : Vec F S1x1x128 .f32) : Vec F S1x1x128 .f32 :=
  k0_pay32 x1 lanes (k0_pay27 x1 lanes (k0_pay16 x1 lanes k0_pay5 k0_pay11 (k0_pay12 x1)) (k0_pay21 x1)) half prev

/-- The sum lanes after a point: the lanes found plus the five per-class sums of `|x0 − x1|`, each on its lane. -/
def sumAcc (x0 x1 : Vec F S1x1x512x1024 .f32) (prev : Vec F S1x1x128 .f32) : Vec F S1x1x128 .f32 :=
  k0_pay33 x1 (k0_pay4 x0 x1) lanes
    (k0_pay28 x1 (k0_pay4 x0 x1) lanes (k0_pay17 x1 (k0_pay4 x0 x1) lanes k0_pay6 (k0_pay10 x0 x1) k0_pay11) (k0_pay20 x1))
    half prev

/-- The class image of ONE element: the block function is pointwise, so this is it on a constant block. -/
def maskElt (x : F .f32) : F .f32 :=
  maskBlk (fun _ => x) (ValueIdx.ix4 (0 : Fin 1) (0 : Fin 1) (0 : Fin 512) (0 : Fin 1024))

/-- The class-id block is that function of each element. -/
theorem maskBlk_apply (x1 : Vec F S1x1x512x1024 .f32) (y : S1x1x512x1024.Idx) : maskBlk x1 y = maskElt (x1 y) := rfl

/-- The zero lanes the first row tile of a batch stores before accumulating. -/
abbrev zeroLanes : Vec F S1x1x128 .f32 := broadcast S1x1x128 (Scalar.ofBits .f32 0x00000000#32)

/-! ## First row tile of a batch (the lanes are reset) -/

theorem out_A_2 (c : Dev nD) (i : grid0.Coords) (a2 : Memref sig .tc .vmem S1x1x512x1024 .f32) (h2 : a2.IsWhole)
    (a3 : Memref sig .tc .vmem S1x1x512x1024 .f32) (h3 : a3.IsWhole) (a4 : Memref sig .tc .vmem S1x1x512x1024 .f32) (h4 : a4.IsWhole)
    (a5 : Memref sig .tc .vmem S1x1x128 .f32) (h5 : a5.IsWhole) (a6 : Memref sig .tc .vmem S1x1x128 .f32) (h6 : a6.IsWhole)
    (hc : cond0_0 i) (x0 x1 : Vec F S1x1x512x1024 .f32) :
    out0_A_2 c i a2 h2 a3 h3 a4 h4 a5 h5 a6 h6 hc x0 x1 = maskBlk x1 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero hz4]
  simp only [View.readAt_eq_ld, h2.read_unread, h3.read_unread, View.ld_unit_zero (S := S1x1x512x1024) hz4]
  rfl

theorem out_A_3 (c : Dev nD) (i : grid0.Coords) (a2 : Memref sig .tc .vmem S1x1x512x1024 .f32) (h2 : a2.IsWhole)
    (a3 : Memref sig .tc .vmem S1x1x512x1024 .f32) (h3 : a3.IsWhole) (a4 : Memref sig .tc .vmem S1x1x512x1024 .f32) (h4 : a4.IsWhole)
    (a5 : Memref sig .tc .vmem S1x1x128 .f32) (h5 : a5.IsWhole) (a6 : Memref sig .tc .vmem S1x1x128 .f32) (h6 : a6.IsWhole)
    (hc : cond0_0 i) (x0 x1 : Vec F S1x1x512x1024 .f32) :
    out0_A_3 c i a2 h2 a3 h3 a4 h4 a5 h5 a6 h6 hc x0 x1 = cntAcc x1 zeroLanes := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S1x1x512x1024) hz4]
  rfl

theorem out_A_4 (c : Dev nD) (i : grid0.Coords) (a2 : Memref sig .tc .vmem S1x1x512x1024 .f32) (h2 : a2.IsWhole)
    (a3 : Memref sig .tc .vmem S1x1x512x1024 .f32) (h3 : a3.IsWhole) (a4 : Memref sig .tc .vmem S1x1x512x1024 .f32) (h4 : a4.IsWhole)
    (a5 : Memref sig .tc .vmem S1x1x128 .f32) (h5 : a5.IsWhole) (a6 : Memref sig .tc .vmem S1x1x128 .f32) (h6 : a6.IsWhole)
    (hc : cond0_0 i) (x0 x1 : Vec F S1x1x512x1024 .f32) :
    out0_A_4 c i a2 h2 a3 h3 a4 h4 a5 h5 a6 h6 hc x0 x1 = sumAcc x0 x1 zeroLanes := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S1x1x512x1024) hz4]
  rfl

/-! ## Second row tile of a batch (the lanes carry on) -/

theorem out_B_2 (c : Dev nD) (i : grid0.Coords) (a2 : Memref sig .tc .vmem S1x1x512x1024 .f32) (h2 : a2.IsWhole)
    (a3 : Memref sig .tc .vmem S1x1x512x1024 .f32) (h3 : a3.IsWhole) (a4 : Memref sig .tc .vmem S1x1x512x1024 .f32) (h4 : a4.IsWhole)
    (a5 : Memref sig .tc .vmem S1x1x128 .f32) (h5 : a5.IsWhole) (a6 : Memref sig .tc .vmem S1x1x128 .f32) (h6 : a6.IsWhole)
    (hc : ¬cond0_0 i) (x0 x1 : Vec F S1x1x512x1024 .f32) (xo3 xo4 : Vec F S1x1x128 .f32) :
    out0_B_2 c i a2 h2 a3 h3 a4 h4 a5 h5 a6 h6 hc x0 x1 xo3 xo4 = maskBlk x1 := by
  unfold out0_B_2
  rw [View.read_writes_eq_canon _ _ _ (cover0_B_2 c i a2 h2 a3 h3 a4 h4 a5 h5 a6 h6 hc x0 x1 xo3 xo4)]
  unfold kernelRun0_B
  dsimp only
  sl_unfold_words
  rw [View.canon_unit_zero hz4]
  simp only [View.readAt_eq_ld, h2.read_unread, h3.read_unread, View.ld_unit_zero (S := S1x1x512x1024) hz4]
  rfl

theorem out_B_3 (c : Dev nD) (i : grid0.Coords) (a2 : Memref sig .tc .vmem S1x1x512x1024 .f32) (h2 : a2.IsWhole)
    (a3 : Memref sig .tc .vmem S1x1x512x1024 .f32) (h3 : a3.IsWhole) (a4 : Memref sig .tc .vmem S1x1x512x1024 .f32) (h4 : a4.IsWhole)
    (a5 : Memref sig .tc .vmem S1x1x128 .f32) (h5 : a5.IsWhole) (a6 : Memref sig .tc .vmem S1x1x128 .f32) (h6 : a6.IsWhole)
    (hc : ¬cond0_0 i) (x0 x1 : Vec F S1x1x512x1024 .f32) (xo3 xo4 : Vec F S1x1x128 .f32) :
    out0_B_3 c i a2 h2 a3 h3 a4 h4 a5 h5 a6 h6 hc x0 x1 xo3 xo4 = cntAcc x1 xo3 := by
  unfold out0_B_3
  rw [View.read_writes_eq_canon _ _ _ (cover0_B_3 c i a2 h2 a3 h3 a4 h4 a5 h5 a6 h6 hc x0 x1 xo3 xo4)]
  unfold kernelRun0_B
  dsimp only
  sl_unfold_words
  rw [View.canon_unit_zero hz3]
  simp only [View.readAt_eq_ld, h2.read_unread, h3.read_unread, h5.read_unread, h6.read_unread,
    View.ld_unit_zero (S := S1x1x512x1024) hz4, View.ld_unit_zero (S := S1x1x128) hz3]
  rfl

theorem out_B_4 (c : Dev nD) (i : grid0.Coords) (a2 : Memref sig .tc .vmem S1x1x512x1024 .f32) (h2 : a2.IsWhole)
    (a3 : Memref sig .tc .vmem S1x1x512x1024 .f32) (h3 : a3.IsWhole) (a4 : Memref sig .tc .vmem S1x1x512x1024 .f32) (h4 : a4.IsWhole)
    (a5 : Memref sig .tc .vmem S1x1x128 .f32) (h5 : a5.IsWhole) (a6 : Memref sig .tc .vmem S1x1x128 .f32) (h6 : a6.IsWhole)
    (hc : ¬cond0_0 i) (x0 x1 : Vec F S1x1x512x1024 .f32) (xo3 xo4 : Vec F S1x1x128 .f32) :
    out0_B_4 c i a2 h2 a3 h3 a4 h4 a5 h5 a6 h6 hc x0 x1 xo3 xo4 = sumAcc x0 x1 xo4 := by
  unfold out0_B_4
  rw [View.read_writes_eq_canon _ _ _ (cover0_B_4 c i a2 h2 a3 h3 a4 h4 a5 h5 a6 h6 hc x0 x1 xo3 xo4)]
  unfold kernelRun0_B
  dsimp only
  sl_unfold_words
  rw [View.canon_unit_zero hz3]
  simp only [View.readAt_eq_ld, h2.read_unread, h3.read_unread, h5.read_unread, h6.read_unread,
    View.ld_unit_zero (S := S1x1x512x1024) hz4, View.ld_unit_zero (S := S1x1x128) hz3]
  rfl

end Cert.KernelIdeal.Pieces

end
-- ==== Proof.Accum.lean ====
import proofs.«155842_j2808908612055_2_alg».proof.Proof.Pieces

/-!
  What the three output staging buffers hold after each grid point, in closed form.

  Point `2b` (a batch's first row tile) resets the two accumulator blocks and adds its block's totals; point `2b + 1`
  (the second) adds its block's totals to what the first left. The class block is the point's own at every point.
-/

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ) (ρ : Dev nD → PrngReg)

/-! ## What the staging buffers hold after each point, in closed form -/

set_option maxHeartbeats 4000000 in
/-- After a first row tile: the class block, and the block's totals added to zero lanes. -/
theorem outsAt_even (c : Dev nD) (t : Fin cfg0.N) (h0 : t.val % 2 = 0) :
    outsAt0 m c t.val t.isLt = (maskBlk (iblk m c 1 t), cntAcc (iblk m c 1 t) zeroLanes,
      sumAcc (iblk m c 0 t) (iblk m c 1 t) zeroLanes) := by
  rw [outsAt0_A m c t h0, out_A_2, out_A_3, out_A_4]

/-- The point before `t`. -/
abbrev before (t : Fin cfg0.N) : Fin cfg0.N := ⟨t.val - 1, Nat.lt_of_le_of_lt (Nat.sub_le _ _) t.isLt⟩

set_option maxHeartbeats 4000000 in
/-- After a second row tile: the class block, and the block's totals added to what the first tile left. -/
theorem outsAt_odd (c : Dev nD) (t : Fin cfg0.N) (h1 : ¬t.val % 2 = 0) :
    outsAt0 m c t.val t.isLt = (maskBlk (iblk m c 1 t),
      cntAcc (iblk m c 1 t) (cntAcc (iblk m c 1 (before t)) zeroLanes),
      sumAcc (iblk m c 0 t) (iblk m c 1 t) (sumAcc (iblk m c 0 (before t)) (iblk m c 1 (before t)) zeroLanes)) := by
  have hp : (before t).val % 2 = 0 := by show (t.val - 1) % 2 = 0; omega
  have e : outsAt0 m c (t.val - 1) (Nat.lt_of_le_of_lt (Nat.sub_le _ _) t.isLt)
      = (maskBlk (iblk m c 1 (before t)), cntAcc (iblk m c 1 (before t)) zeroLanes,
          sumAcc (iblk m c 0 (before t)) (iblk m c 1 (before t)) zeroLanes) := outsAt_even m c (before t) hp
  rw [outsAt0_B m c t h1, out_B_2, out_B_3, out_B_4, e]

/-- The class block after ANY point. -/
theorem outsAt_mask (c : Dev nD) (t : Fin cfg0.N) : (outsAt0 m c t.val t.isLt).1 = maskBlk (iblk m c 1 t) := by
  by_cases h0 : t.val % 2 = 0
  · rw [outsAt_even m c t h0]
  · rw [outsAt_odd m c t h0]

end Cert.KernelIdeal.Accum

end
-- ==== Proof.Sums.lean ====
import Idealize.ShloMosaic.PureOps.Ideal
import Idealize.ShloMosaic.Lib.ValueIdx

/-!
  Sums over a rank-4 index set.

  A sum over the indices of a four-axis array is the nested sum over its four coordinates; the sum over an axis of
  1024 rows is the sum over its first 512 rows plus the sum over its last 512 (the two row tiles); a sum of naturals
  read as extended reals is the sum of the extended reals.
-/

open scoped BigOperators

namespace Cert.Sums

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The number of indices of a rank-4 shape is the product of its extents. -/
theorem card_idx4 {n0 n1 n2 n3 : Nat} :
    Fintype.card (⟨4, ![n0, n1, n2, n3]⟩ : Shape).Idx = n0 * (n1 * (n2 * n3)) := by
  rw [Fintype.card_congr (idxEquiv4 (n0 := n0) (n1 := n1) (n2 := n2) (n3 := n3))]
  simp [Fintype.card_prod]

/-- Row `r` of row tile `rt` (two tiles of 512 rows each) among the 1024 rows. -/
def row (rt : Fin 2) (r : Fin 512) : Fin 1024 := ⟨512 * rt.val + r.val, by have := rt.isLt; have := r.isLt; omega⟩

@[simp] theorem row_val (rt : Fin 2) (r : Fin 512) : (row rt r).val = 512 * rt.val + r.val := rfl

/-- A sum over the 1024 rows is the sum over the first tile's rows plus the sum over the second's. -/
theorem sum_rows {M : Type*} [AddCommMonoid M] (g : Fin 1024 → M) :
    ∑ q : Fin 1024, g q = ∑ r : Fin 512, g (row 0 r) + ∑ r : Fin 512, g (row 1 r) := by
  have h := Fin.sum_univ_add (a := 512) (b := 512) (f := (g : Fin (512 + 512) → M))
  exact h.trans (congrArg₂ (· + ·)
    (Finset.sum_congr rfl fun r _ => congrArg g (Fin.ext (by simp [row])))
    (Finset.sum_congr rfl fun r _ => congrArg g (Fin.ext (by simp [row]; omega))))

/-- The sum over a one-element axis is its one term. -/
theorem sum_fin_one {M : Type*} [AddCommMonoid M] (g : Fin 1 → M) : ∑ q : Fin 1, g q = g 0 := by simp

/-- The extended real of a sum of naturals is the sum of the extended reals. -/
theorem coe_nat_sum {ι : Type*} (s : Finset ι) (f : ι → ℕ) :
    (((∑ i ∈ s, f i : ℕ) : ℝ) : EReal) = ∑ i ∈ s, (((f i : ℕ) : ℝ) : EReal) := by
  classical
  induction s using Finset.cons_induction with
  | empty => simp
  | cons a S ha ih =>
    rw [Finset.sum_cons, Finset.sum_cons, ← ih]
    push_cast
    rfl

end Cert.Sums
-- ==== Proof.Arrays.lean ====
import proofs.«155842_j2808908612055_2_alg».proof.Proof.Accum
import proofs.«155842_j2808908612055_2_alg».proof.Proof.Sums

/-!
  The kernel's three result arrays after the run, each as ONE function of the argument arrays.

  The grid has 32 points: point `2b + rt` is batch `b`, row tile `rt`. The class-image window moves with the
  point (block `(b, 0, rt, 0)` of rows `512·rt …`), and is written back at every point; the two accumulator windows
  stay on block `(b, 0, 0)` for both row tiles of a batch and are written back after the second. So
    * the class image ends holding `maskElt` of the real image, element by element;
    * row `b` of the count array ends holding the lanes `cntAcc (tile 1) (cntAcc (tile 0) 0)` of batch `b`'s two
      row tiles of the real image, and row `b` of the sum array the same with `sumAcc`.
-/

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Pieces Cert.KernelIdeal.Accum Idealize.ShloMosaic.ValueIdx

variable {F : FTy → Type} [FloatOps F]
variable (m : (ℓ : Loc nD τ sig) → Buf (Elt F) ℓ) (ρ : Dev nD → PrngReg)

/-! ## The index maps, decided over the grid -/

/-- Point `t` is batch `t / 2`, row tile `t % 2`: the three image windows sit on block `(t/2, 0, t%2, 0)`, the two
    accumulator windows on block `(t/2, 0, 0)`. -/
theorem idx_facts : ∀ t : Fin cfg0.N,
    (win0_0.index t (0 : Fin 4) = t.val / 2 ∧ win0_0.index t (1 : Fin 4) = 0 ∧ win0_0.index t (2 : Fin 4) = t.val % 2 ∧ win0_0.index t (3 : Fin 4) = 0)
    ∧ (win0_1.index t (0 : Fin 4) = t.val / 2 ∧ win0_1.index t (1 : Fin 4) = 0 ∧ win0_1.index t (2 : Fin 4) = t.val % 2 ∧ win0_1.index t (3 : Fin 4) = 0)
    ∧ (win0_2.index t (0 : Fin 4) = t.val / 2 ∧ win0_2.index t (1 : Fin 4) = 0 ∧ win0_2.index t (2 : Fin 4) = t.val % 2 ∧ win0_2.index t (3 : Fin 4) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 0) :=
  (by decide +kernel : ∀ t : Fin grid0.N, _)

/-- The grid point of batch `b`, row tile `rt`. -/
def pt (b : Fin 16) (rt : Fin 2) : Fin cfg0.N :=
  ⟨2 * b.val + rt.val, by rw [show cfg0.N = 32 from N_0]; have := b.isLt; have := rt.isLt; omega⟩

@[simp] theorem pt_val (b : Fin 16) (rt : Fin 2) : (pt b rt).val = 2 * b.val + rt.val := rfl

theorem before_pt_one (b : Fin 16) : before (pt b 1) = pt b 0 := Fin.ext (by show 2 * b.val + 1 - 1 = 2 * b.val + 0; omega)

/-! ## The input blocks, read at coordinates -/

/-- Row `r`, lane `l` of the predicted image's block at batch `b`, row tile `rt` is the image at `(b, 0, 512·rt + r, l)`. -/
theorem iblk0_at (c : Dev nD) (b : Fin 16) (rt : Fin 2) (r : Fin 512) (l : Fin 1024) :
    iblk m c 0 (pt b rt) (ix4 (0 : Fin 1) (0 : Fin 1) r l) = V m c main_arg0 (ix4 b (0 : Fin 1) (Sums.row rt r) l) := by
  unfold iblk
  rw [View.read_apply]
  show V m c main_arg0 _ = V m c main_arg0 _
  congr 1
  obtain ⟨⟨e0, e1, e2, e3⟩, -⟩ := idx_facts (pt b rt)
  have hb := b.isLt; have hrt := rt.isLt
  funext a
  apply Fin.ext
  match a with
  | ⟨0, _⟩ => show win0_0.index (pt b rt) (0 : Fin 4) * 1 + 1 * 0 = b.val; rw [e0, pt_val]; omega
  | ⟨1, _⟩ => show win0_0.index (pt b rt) (1 : Fin 4) * 1 + 1 * 0 = 0; rw [e1]
  | ⟨2, _⟩ => show win0_0.index (pt b rt) (2 : Fin 4) * 512 + 1 * r.val = 512 * rt.val + r.val; rw [e2, pt_val]; omega
  | ⟨3, _⟩ => show win0_0.index (pt b rt) (3 : Fin 4) * 1024 + 1 * l.val = l.val; rw [e3]; omega

/-- The same for the real image. -/
theorem iblk1_at (c : Dev nD) (b : Fin 16) (rt : Fin 2) (r : Fin 512) (l : Fin 1024) :
    iblk m c 1 (pt b rt) (ix4 (0 : Fin 1) (0 : Fin 1) r l) = V m c main_arg1 (ix4 b (0 : Fin 1) (Sums.row rt r) l) := by
  unfold iblk
  rw [View.read_apply]
  show V m c main_arg1 _ = V m c main_arg1 _
  congr 1
  obtain ⟨-, ⟨e0, e1, e2, e3⟩, -⟩ := idx_facts (pt b rt)
  have hb := b.isLt; have hrt := rt.isLt
  funext a
  apply Fin.ext
  match a with
  | ⟨0, _⟩ => show win0_1.index (pt b rt) (0 : Fin 4) * 1 + 1 * 0 = b.val; rw [e0, pt_val]; omega
  | ⟨1, _⟩ => show win0_1.index (pt b rt) (1 : Fin 4) * 1 + 1 * 0 = 0; rw [e1]
  | ⟨2, _⟩ => show win0_1.index (pt b rt) (2 : Fin 4) * 512 + 1 * r.val = 512 * rt.val + r.val; rw [e2, pt_val]; omega
  | ⟨3, _⟩ => show win0_1.index (pt b rt) (3 : Fin 4) * 1024 + 1 * l.val = l.val; rw [e3]; omega

/-! ## The class image -/

/-- The class image: `maskElt` of the real image, element by element. -/
def G2 (c : Dev nD) : S16x1x1024x1024.Idx → F .f32 := fun i => maskElt (V m c main_arg1 i)

set_option maxHeartbeats 1000000 in
/-- What point `t` writes back is block `t` of it. -/
theorem flushed2_eq (c : Dev nD) (t : Fin cfg0.N) :
    (dats m 0 c).flushed 2 t = ((cfg0.win 2).blk t).view.read (Elt F) (G2 m c) := by
  show (cfg0.win 2).cut (grid0.coords t) ((dats m 0 c).after 2 t) = _
  rw [after0_2, outsAt_mask]
  obtain ⟨-, ⟨e0, e1, e2, e3⟩, ⟨f0, f1, f2, f3⟩, -⟩ := idx_facts t
  funext y
  refine (maskBlk_apply (iblk m c 1 t) y).trans ?_
  show maskElt (V m c main_arg1 (((cfg0.win 1).blk t).view.emb y)) = maskElt (V m c main_arg1 (((cfg0.win 2).blk t).view.emb y))
  have h : ((cfg0.win 1).blk t).view.emb y = ((cfg0.win 2).blk t).view.emb y := by
    funext a; apply Fin.ext
    match a with
    | ⟨0, _⟩ => show win0_1.index t (0 : Fin 4) * 1 + 1 * (y 0).val = win0_2.index t (0 : Fin 4) * 1 + 1 * (y 0).val; rw [e0, f0]
    | ⟨1, _⟩ => show win0_1.index t (1 : Fin 4) * 1 + 1 * (y 1).val = win0_2.index t (1 : Fin 4) * 1 + 1 * (y 1).val; rw [e1, f1]
    | ⟨2, _⟩ => show win0_1.index t (2 : Fin 4) * 512 + 1 * (y 2).val = win0_2.index t (2 : Fin 4) * 512 + 1 * (y 2).val; rw [e2, f2]
    | ⟨3, _⟩ => show win0_1.index t (3 : Fin 4) * 1024 + 1 * (y 3).val = win0_2.index t (3 : Fin 4) * 1024 + 1 * (y 3).val; rw [e3, f3]
  rw [h]

/-- An index of the class image is in point `t`'s block iff each coordinate is in the block's range. -/
theorem mem_blk2 (t : Fin cfg0.N) (i : S16x1x1024x1024.Idx) :
    i ∈ ((cfg0.win 2).blk t).view.set ↔ ∀ a : Fin 4, win0_2.index t a * S1x1x512x1024.size a ≤ (i a).val ∧ (i a).val < win0_2.index t a * S1x1x512x1024.size a + S1x1x512x1024.size a := by
  show i ∈ ((View.whole main_v0_0).slice (win0_2.rect t)).set ↔ _
  rw [View.set_slice_whole, Rect.mem_set_unit]
  exact Iff.rfl

/-- Every element of the class image is written back by its batch's and row tile's point. -/
theorem cover2 (i : S16x1x1024x1024.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1024 := (i 2).isLt
  have h3 : (i 3).val < 1024 := (i 3).isLt
  refine ⟨pt ⟨(i 0).val, h0⟩ ⟨(i 2).val / 512, by omega⟩, flush0_2 _, ?_⟩
  rw [mem_blk2]
  obtain ⟨-, -, ⟨f0, f1, f2, f3⟩, -⟩ := idx_facts (pt ⟨(i 0).val, h0⟩ ⟨(i 2).val / 512, by omega⟩)
  intro a
  match a with
  | ⟨0, _⟩ => show win0_2.index _ (0 : Fin 4) * 1 ≤ (i 0).val ∧ (i 0).val < win0_2.index _ (0 : Fin 4) * 1 + 1; rw [f0, pt_val]; dsimp only; omega
  | ⟨1, _⟩ => show win0_2.index _ (1 : Fin 4) * 1 ≤ (i 1).val ∧ (i 1).val < win0_2.index _ (1 : Fin 4) * 1 + 1; rw [f1]; omega
  | ⟨2, _⟩ => show win0_2.index _ (2 : Fin 4) * 512 ≤ (i 2).val ∧ (i 2).val < win0_2.index _ (2 : Fin 4) * 512 + 512; rw [f2, pt_val]; dsimp only; omega
  | ⟨3, _⟩ => show win0_2.index _ (3 : Fin 4) * 1024 ≤ (i 3).val ∧ (i 3).val < win0_2.index _ (3 : Fin 4) * 1024 + 1024; rw [f3]; omega

/-- The class image after the run. -/
theorem final2 (c : Dev nD) : (dats m 0 c).arrAt 2 cfg0.N = G2 m c :=
  (dats m 0 c).arrAt_eq_of_cover 2 (G2 m c) (fun t _ => flushed2_eq m c t) (cover2)

/-! ## The two accumulator arrays -/

/-- The count lanes of the batch whose second row tile is point `t`. -/
def cntLanes (c : Dev nD) (t : Fin cfg0.N) : Vec F S1x1x128 .f32 :=
  cntAcc (iblk m c 1 t) (cntAcc (iblk m c 1 (before t)) zeroLanes)

/-- The sum lanes of the batch whose second row tile is point `t`. -/
def sumLanes (c : Dev nD) (t : Fin cfg0.N) : Vec F S1x1x128 .f32 :=
  sumAcc (iblk m c 0 t) (iblk m c 1 t) (sumAcc (iblk m c 0 (before t)) (iblk m c 1 (before t)) zeroLanes)

/-- The count array: row `b` holds batch `b`'s lanes. -/
def G3 (c : Dev nD) : S16x1x128.Idx → F .f32 :=
  fun j => cntLanes m c (pt ⟨(j 0).val, (j 0).isLt⟩ 1) (ix3 (0 : Fin 1) (0 : Fin 1) ⟨(j 2).val, (j 2).isLt⟩)

/-- The sum array: row `b` holds batch `b`'s lanes. -/
def G4 (c : Dev nD) : S16x1x128.Idx → F .f32 :=
  fun j => sumLanes m c (pt ⟨(j 0).val, (j 0).isLt⟩ 1) (ix3 (0 : Fin 1) (0 : Fin 1) ⟨(j 2).val, (j 2).isLt⟩)

/-- A lane index of an accumulator block is `(0, 0, lane)`. -/
theorem lane_eq (y : S1x1x128.Idx) : ix3 (0 : Fin 1) (0 : Fin 1) (⟨(y 2).val, (y 2).isLt⟩ : Fin 128) = y := by
  funext a
  match a with
  | ⟨0, _⟩ => exact Fin.ext (by have : (y 0).val < 1 := (y 0).isLt; show 0 = (y 0).val; omega)
  | ⟨1, _⟩ => exact Fin.ext (by have : (y 1).val < 1 := (y 1).isLt; show 0 = (y 1).val; omega)
  | ⟨2, _⟩ => rfl

/-- What a second row tile's point writes back of the counts is its batch's row of the count array. -/
theorem flushed3_eq (c : Dev nD) (t : Fin cfg0.N) (hf : (cfg0.win 3).flush t = true) :
    (dats m 0 c).flushed 3 t = ((cfg0.win 3).blk t).view.read (Elt F) (G3 m c) := by
  have hN : t.val < 32 := lt_of_lt_of_eq t.isLt (show cfg0.N = 32 from N_0)
  have hodd : t.val % 2 = 1 := (flush0_3 t).mp hf
  show (cfg0.win 3).cut (grid0.coords t) ((dats m 0 c).after 3 t) = _
  rw [after0_3, outsAt_odd m c t (by omega)]
  dsimp only
  obtain ⟨-, -, -, ⟨g0, g1, g2⟩, -⟩ := idx_facts t
  funext y
  show cntLanes m c t y = G3 m c (((cfg0.win 3).blk t).view.emb y)
  have hy0 : (y 0).val < 1 := (y 0).isLt
  have hy1 : (y 1).val < 1 := (y 1).isLt
  have e0 : ((((cfg0.win 3).blk t).view.emb y) 0).val = t.val / 2 := by
    show win0_3.index t (0 : Fin 3) * 1 + 1 * (y 0).val = _; rw [g0]; omega
  have e2 : ((((cfg0.win 3).blk t).view.emb y) 2).val = (y 2).val := by
    show win0_3.index t (2 : Fin 3) * 128 + 1 * (y 2).val = _; rw [g2]; omega
  have hpt : pt ⟨((((cfg0.win 3).blk t).view.emb y) 0).val, ((((cfg0.win 3).blk t).view.emb y) 0).isLt⟩ 1 = t :=
    Fin.ext (by show 2 * ((((cfg0.win 3).blk t).view.emb y) 0).val + 1 = t.val; rw [e0]; omega)
  have hl : ix3 (0 : Fin 1) (0 : Fin 1) (⟨((((cfg0.win 3).blk t).view.emb y) 2).val, ((((cfg0.win 3).blk t).view.emb y) 2).isLt⟩ : Fin 128) = y := by
    rw [← lane_eq y]; exact congrArg (ix3 (0 : Fin 1) (0 : Fin 1)) (Fin.ext e2)
  unfold G3
  rw [hpt, hl]

/-- The same for the sums. -/
theorem flushed4_eq (c : Dev nD) (t : Fin cfg0.N) (hf : (cfg0.win 4).flush t = true) :
    (dats m 0 c).flushed 4 t = ((cfg0.win 4).blk t).view.read (Elt F) (G4 m c) := by
  have hN : t.val < 32 := lt_of_lt_of_eq t.isLt (show cfg0.N = 32 from N_0)
  have hodd : t.val % 2 = 1 := (flush0_4 t).mp hf
  show (cfg0.win 4).cut (grid0.coords t) ((dats m 0 c).after 4 t) = _
  rw [after0_4, outsAt_odd m c t (by omega)]
  dsimp only
  obtain ⟨-, -, -, -, ⟨g0, g1, g2⟩⟩ := idx_facts t
  funext y
  show sumLanes m c t y = G4 m c (((cfg0.win 4).blk t).view.emb y)
  have hy0 : (y 0).val < 1 := (y 0).isLt
  have hy1 : (y 1).val < 1 := (y 1).isLt
  have e0 : ((((cfg0.win 4).blk t).view.emb y) 0).val = t.val / 2 := by
    show win0_4.index t (0 : Fin 3) * 1 + 1 * (y 0).val = _; rw [g0]; omega
  have e2 : ((((cfg0.win 4).blk t).view.emb y) 2).val = (y 2).val := by
    show win0_4.index t (2 : Fin 3) * 128 + 1 * (y 2).val = _; rw [g2]; omega
  have hpt : pt ⟨((((cfg0.win 4).blk t).view.emb y) 0).val, ((((cfg0.win 4).blk t).view.emb y) 0).isLt⟩ 1 = t :=
    Fin.ext (by show 2 * ((((cfg0.win 4).blk t).view.emb y) 0).val + 1 = t.val; rw [e0]; omega)
  have hl : ix3 (0 : Fin 1) (0 : Fin 1) (⟨((((cfg0.win 4).blk t).view.emb y) 2).val, ((((cfg0.win 4).blk t).view.emb y) 2).isLt⟩ : Fin 128) = y := by
    rw [← lane_eq y]; exact congrArg (ix3 (0 : Fin 1) (0 : Fin 1)) (Fin.ext e2)
  unfold G4
  rw [hpt, hl]

/-- An index of an accumulator array is in point `t`'s block iff each coordinate is in the block's range. -/
theorem mem_blk3 (t : Fin cfg0.N) (j : S16x1x128.Idx) :
    j ∈ ((cfg0.win 3).blk t).view.set ↔ ∀ a : Fin 3, win0_3.index t a * S1x1x128.size a ≤ (j a).val ∧ (j a).val < win0_3.index t a * S1x1x128.size a + S1x1x128.size a := by
  show j ∈ ((View.whole main_v0_1).slice (win0_3.rect t)).set ↔ _
  rw [View.set_slice_whole, Rect.mem_set_unit]
  exact Iff.rfl

theorem mem_blk4 (t : Fin cfg0.N) (j : S16x1x128.Idx) :
    j ∈ ((cfg0.win 4).blk t).view.set ↔ ∀ a : Fin 3, win0_4.index t a * S1x1x128.size a ≤ (j a).val ∧ (j a).val < win0_4.index t a * S1x1x128.size a + S1x1x128.size a := by
  show j ∈ ((View.whole main_v0_2).slice (win0_4.rect t)).set ↔ _
  rw [View.set_slice_whole, Rect.mem_set_unit]
  exact Iff.rfl

/-- Row `b` of the count array is written back by batch `b`'s second row tile. -/
theorem cover3 (j : S16x1x128.Idx) : ∃ t : Fin cfg0.N, (cfg0.win 3).flush t = true ∧ j ∈ ((cfg0.win 3).blk t).view.set := by
  have h0 : (j 0).val < 16 := (j 0).isLt
  have h1 : (j 1).val < 1 := (j 1).isLt
  have h2 : (j 2).val < 128 := (j 2).isLt
  refine ⟨pt ⟨(j 0).val, h0⟩ 1, (flush0_3 _).mpr (by simp), ?_⟩
  rw [mem_blk3]
  obtain ⟨-, -, -, ⟨g0, g1, g2⟩, -⟩ := idx_facts (pt ⟨(j 0).val, h0⟩ 1)
  intro a
  match a with
  | ⟨0, _⟩ => show win0_3.index _ (0 : Fin 3) * 1 ≤ (j 0).val ∧ (j 0).val < win0_3.index _ (0 : Fin 3) * 1 + 1; rw [g0, pt_val]; dsimp only; omega
  | ⟨1, _⟩ => show win0_3.index _ (1 : Fin 3) * 1 ≤ (j 1).val ∧ (j 1).val < win0_3.index _ (1 : Fin 3) * 1 + 1; rw [g1]; omega
  | ⟨2, _⟩ => show win0_3.index _ (2 : Fin 3) * 128 ≤ (j 2).val ∧ (j 2).val < win0_3.index _ (2 : Fin 3) * 128 + 128; rw [g2]; omega

theorem cover4 (j : S16x1x128.Idx) : ∃ t : Fin cfg0.N, (cfg0.win 4).flush t = true ∧ j ∈ ((cfg0.win 4).blk t).view.set := by
  have h0 : (j 0).val < 16 := (j 0).isLt
  have h1 : (j 1).val < 1 := (j 1).isLt
  have h2 : (j 2).val < 128 := (j 2).isLt
  refine ⟨pt ⟨(j 0).val, h0⟩ 1, (flush0_4 _).mpr (by simp), ?_⟩
  rw [mem_blk4]
  obtain ⟨-, -, -, -, ⟨g0, g1, g2⟩⟩ := idx_facts (pt ⟨(j 0).val, h0⟩ 1)
  intro a
  match a with
  | ⟨0, _⟩ => show win0_4.index _ (0 : Fin 3) * 1 ≤ (j 0).val ∧ (j 0).val < win0_4.index _ (0 : Fin 3) * 1 + 1; rw [g0, pt_val]; dsimp only; omega
  | ⟨1, _⟩ => show win0_4.index _ (1 : Fin 3) * 1 ≤ (j 1).val ∧ (j 1).val < win0_4.index _ (1 : Fin 3) * 1 + 1; rw [g1]; omega
  | ⟨2, _⟩ => show win0_4.index _ (2 : Fin 3) * 128 ≤ (j 2).val ∧ (j 2).val < win0_4.index _ (2 : Fin 3) * 128 + 128; rw [g2]; omega

/-- The count array after the run. -/
theorem final3 (c : Dev nD) : (dats m 0 c).arrAt 3 cfg0.N = G3 m c :=
  (dats m 0 c).arrAt_eq_of_cover 3 (G3 m c) (fun t hf => flushed3_eq m c t hf) (cover3)

/-- The sum array after the run. -/
theorem final4 (c : Dev nD) : (dats m 0 c).arrAt 4 cfg0.N = G4 m c :=
  (dats m 0 c).arrAt_eq_of_cover 4 (G4 m c) (fun t hf => flushed4_eq m c t hf) (cover4)

end Cert.KernelIdeal.Arrays

end
-- ==== Proof.KernelTail.lean ====
import proofs.«155842_j2808908612055_2_alg».proof.Proof.Arrays
import Idealize.ShloMosaic.Lib.StableHlo.Run

/-!
  The kernel program's run, read: its three results as functions of the argument arrays.

  After the region the host takes lanes 0 … 4 of each accumulator array, sums them over the 16 batches
  (`perClass`), and forms the five per-class losses (`losses`: 0 where the class's count is 0, else the class's sum
  over the larger of its count and 1, times the weight) and their total. The third result is the class image itself.
-/

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Pieces Cert.KernelIdeal.Arrays

variable {F : FTy → Type} [FloatOps F]
variable (m : (ℓ : Loc nD τ sig) → Buf (Elt F) ℓ) (ρ : Dev nD → PrngReg)

/-- Lanes 0 … 4 of an accumulator array summed over the batches, from zero. -/
def perClass (A : S16x1x128.Idx → F .f32) : S5.Idx → F .f32 :=
  Host.reduceAdd (shapeCast S16x5 (extractStridedSlice S16x1x5 ![0, 0, 0] A slices_S16x1x128_S16x1x5_0_0_0) shapeCasts_S16x1x5_S16x5)
    (constant S_ .f32 0x00000000#32) reducesTo_S16x5_S5_d0 h_S_

/-- The five per-class losses from the count array and the sum array. -/
def losses (C S : S16x1x128.Idx → F .f32) : S5.Idx → F .f32 :=
  mulf (select (cmpf .oeq (perClass C) (broadcastInDim S5 ![] bcast_S_S5 (constant S_ .f32 0x00000000#32)))
      (broadcastInDim S5 ![] bcast_S_S5 (constant S_ .f32 0x00000000#32))
      (Host.divf (perClass S) (maximumf (perClass C) (broadcastInDim S5 ![] bcast_S_S5 (constant S_ .f32 0x3F800000#32)))))
    (constant S5 .f32 0x3E4CCCCD#32)

/-- Their total, from zero. -/
def total (L : S5.Idx → F .f32) : S_.Idx → F .f32 :=
  Host.reduceAdd L (constant S_ .f32 0x00000000#32) reducesTo_S5_S_d0 h_S_

/-- No window's array is the weights' buffer. -/
theorem arr_ne_cst : ∀ w : Fin 5, Pipeline.arrRef spec0 w ≠ main_cst := by decide

/-- The weights' buffer when the region is entered: the constant the one host line before the region wrote. -/
theorem V0_cst (c : Dev nD) : V0 m c (Proc.devRef .tc main_cst) = constant S5 .f32 0x3E4CCCCD#32 := by
  show StableHlo.after (List.flatten [hostOps0]) (fun b => m (c, b)) (Proc.devRef .tc main_cst) = _
  simp only [hostOps0, List.flatten_cons, List.flatten_nil, List.append_nil, List.cons_append, List.nil_append]
  after_results

set_option maxHeartbeats 4000000 in
/-- The losses' buffer after the host lines that follow the region. -/
theorem tail13 (c : Dev nD) :
    Pipeline.afterTail₀ cfgs (dats m) 0 (V0 m) [hostOps1, hostOps1_1, hostOps1_2] c main_v13 = losses (G3 m c) (G4 m c) := by
  unfold Pipeline.afterTail₀
  have h3 : Pipeline.withArrays (cfgs 0).spec c (V0 m c) (fun w => (dats m 0 c).arrAt w (cfgs 0).N) (Proc.devRef .tc main_v0_1) = G3 m c :=
    (Pipeline.withArrays_arr spec0 launch0.win.arr_inj c _ _ 3).trans (final3 m c)
  have h4 : Pipeline.withArrays (cfgs 0).spec c (V0 m c) (fun w => (dats m 0 c).arrAt w (cfgs 0).N) (Proc.devRef .tc main_v0_2) = G4 m c :=
    (Pipeline.withArrays_arr spec0 launch0.win.arr_inj c _ _ 4).trans (final4 m c)
  have hc : Pipeline.withArrays (cfgs 0).spec c (V0 m c) (fun w => (dats m 0 c).arrAt w (cfgs 0).N) (Proc.devRef .tc main_cst) = constant S5 .f32 0x3E4CCCCD#32 :=
    (Pipeline.withArrays_of_ne spec0 c _ _ main_cst arr_ne_cst).trans (V0_cst m c)
  generalize (Pipeline.withArrays (cfgs 0).spec c (V0 m c) fun w => (dats m 0 c).arrAt w (cfgs 0).N) = W at h3 h4 hc ⊢
  generalize G3 m c = C at h3 ⊢
  generalize G4 m c = S at h4 ⊢
  simp only [hostOps1, hostOps1_1, hostOps1_2, List.flatten_cons, List.flatten_nil, List.append_nil, List.cons_append, List.nil_append]
  after_results
  rw [h3, h4, hc]
  rfl

set_option maxHeartbeats 4000000 in
/-- The total's buffer after them. -/
theorem tail14 (c : Dev nD) :
    Pipeline.afterTail₀ cfgs (dats m) 0 (V0 m) [hostOps1, hostOps1_1, hostOps1_2] c main_v14 = total (losses (G3 m c) (G4 m c)) := by
  unfold Pipeline.afterTail₀
  have h3 : Pipeline.withArrays (cfgs 0).spec c (V0 m c) (fun w => (dats m 0 c).arrAt w (cfgs 0).N) (Proc.devRef .tc main_v0_1) = G3 m c :=
    (Pipeline.withArrays_arr spec0 launch0.win.arr_inj c _ _ 3).trans (final3 m c)
  have h4 : Pipeline.withArrays (cfgs 0).spec c (V0 m c) (fun w => (dats m 0 c).arrAt w (cfgs 0).N) (Proc.devRef .tc main_v0_2) = G4 m c :=
    (Pipeline.withArrays_arr spec0 launch0.win.arr_inj c _ _ 4).trans (final4 m c)
  have hc : Pipeline.withArrays (cfgs 0).spec c (V0 m c) (fun w => (dats m 0 c).arrAt w (cfgs 0).N) (Proc.devRef .tc main_cst) = constant S5 .f32 0x3E4CCCCD#32 :=
    (Pipeline.withArrays_of_ne spec0 c _ _ main_cst arr_ne_cst).trans (V0_cst m c)
  generalize (Pipeline.withArrays (cfgs 0).spec c (V0 m c) fun w => (dats m 0 c).arrAt w (cfgs 0).N) = W at h3 h4 hc ⊢
  generalize G3 m c = C at h3 ⊢
  generalize G4 m c = S at h4 ⊢
  simp only [hostOps1, hostOps1_1, hostOps1_2, List.flatten_cons, List.flatten_nil, List.append_nil, List.cons_append, List.nil_append]
  after_results
  rw [h3, h4, hc]
  rfl

/-- The two loss buffers are among the buffers the region does not stage. -/
theorem v13_rest : main_v13 ∈ Pipeline.restRefs sig (cfgs 0).spec := by decide
theorem v14_rest : main_v14 ∈ Pipeline.restRefs sig (cfgs 0).spec := by decide

/-- THE RUN, READ: every weakly fair execution of the kernel program terminates with the total, the five losses and
    the class image at these functions of the argument arrays, and the arguments unchanged. -/
theorem run : θ_run defs (onTc (τ := τ) (main (F := F))) ⟨m, fun _ => 0, ρ⟩ fun r => ∀ c : Dev nD,
      r.2.mem ((c.tc : Thread nD τ).loc main_v14) = total (losses (G3 m c) (G4 m c))
      ∧ r.2.mem ((c.tc : Thread nD τ).loc main_v13) = losses (G3 m c) (G4 m c)
      ∧ r.2.mem ((c.tc : Thread nD τ).loc main_v0_0) = G2 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v14 v14_rest).trans (tail14 m c),
     ((h c).2 main_v13 v13_rest).trans (tail13 m c),
     ((h c).1 2).trans (final2 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Tail

end
-- ==== Proof.Lanes.lean ====
import proofs.«155842_j2808908612055_2_alg».proof.Proof.Pieces

/-!
  The two accumulator functions, structurally: at any float instance the lanes after a point are the lanes found
  plus a one-hot combination of five scalars, each scalar the body's total of one block (lane sums, the column of row
  sums summed, the one element extracted).
-/

noncomputable section

open Idealize.ShloMosaic Idealize.ShloMosaic.TcCoe Idealize.SL.Sem

namespace Cert.KernelIdeal.Lanes

open Cert.KernelIdeal Cert.KernelIdeal.Gen Cert.KernelIdeal.Pieces

variable {F : FTy → Type} [FloatOps F]

/-- A block's total as the body takes it. -/
def totF (v : FVec F S1x1x512x1024 .f32) : F .f32 :=
  extractAt ![0, 0, 0, 0] (shapeCast S1x1x1x1
    (multiReduction .add [2] S1x1x1
      (shapeCast S1x1x512x1 (multiReduction .add [3] S1x1x512 v 0x00000000#32 reduces_S1x1x512x1024_S1x1x512 (.inl rfl) rfl)
        shapeCasts_S1x1x512_S1x1x512x1)
      0x00000000#32 reduces_S1x1x512x1_S1x1x1 (.inl rfl) rfl) shapeCasts_S1x1x1_S1x1x1x1) inpos_S1x1x1x1_p0_0_0_0

/-- The one-hot combination of five scalars the body adds to the lanes: scalar `k` on lane `k`. -/
def lanesUpd (c0 c1 c2 c3 c4 : F .f32) : FVec F S1x1x128 .f32 :=
  addf (addf (addf (addf (addf k0_pay5 (mulf k0_pay11 (broadcast S1x1x128 c0)))
    (mulf (k0_pay15 lanes) (broadcast S1x1x128 c1))) (mulf (k0_pay22 lanes) (broadcast S1x1x128 c2)))
    (mulf (k0_pay26 lanes) (broadcast S1x1x128 c3))) (mulf (k0_pay31 lanes) (broadcast S1x1x128 c4))

/-- The count lanes after a point. -/
theorem cntAcc_struct (x1 : Vec F S1x1x512x1024 .f32) (prev : Vec F S1x1x128 .f32) :
    cntAcc x1 prev = addf (shapeCast S1x1x128 prev shapeCasts_S1x1x128_S1x1x128)
      (lanesUpd (totF (k0_pay9 x1)) (totF (k0_pay14 x1)) (totF (k0_pay20 x1)) (totF (k0_pay25 x1)) (totF (k0_pay30 x1 half))) := rfl

/-- The sum lanes after a point. -/
theorem sumAcc_struct (x0 x1 : Vec F S1x1x512x1024 .f32) (prev : Vec F S1x1x128 .f32) :
    sumAcc x0 x1 prev = addf (shapeCast S1x1x128 prev shapeCasts_S1x1x128_S1x1x128)
      (lanesUpd (totF (mulf (k0_pay9 x1) (k0_pay4 x0 x1))) (totF (mulf (k0_pay14 x1) (k0_pay4 x0 x1)))
        (totF (mulf (k0_pay20 x1) (k0_pay4 x0 x1))) (totF (mulf (k0_pay25 x1) (k0_pay4 x0 x1)))
        (totF (mulf (k0_pay30 x1 half) (k0_pay4 x0 x1)))) := rfl

end Cert.KernelIdeal.Lanes

end
-- ==== Proof.Words.lean ====
import Idealize.ShloMosaic.PureOps.Ideal
import Idealize.ShloMosaic.PureOps.Reduce
import Idealize.ShloMosaic.Lib.ValueIdx

/-!
  One-bit words and counts.

  A comparison's result is a one-bit word. Widened to 32 bits it is the integer 0 or 1; converted to a float
  at the ideal instance it is the real 0 or 1. A wrapping 32-bit sum of such widened bits over a finite index
  set is the word of the NUMBER of set bits as long as that number is below 2³¹, and then the signed maximum
  with 1, the equality test with 0 and the conversion to a float read that number as a natural.
-/

open scoped BigOperators

namespace Cert.Words

open Idealize.ShloMosaic

/-- A one-bit word is 0 or 1. -/
theorem bit_cases (b : BitVec 1) : b = 0#1 ∨ b = 1#1 := by
  by_cases h : b = 1#1
  · exact Or.inr h
  · exact Or.inl (ValueIdx.eq_zero_of_ne_one h)

/-- The natural value of a one-bit word is at most one. -/
theorem toNat_le_one (b : BitVec 1) : b.toNat ≤ 1 := by
  rcases bit_cases b with rfl | rfl <;> decide

/-- Zero-extending a bit to 32 bits keeps its natural value, -/
theorem toNat_setWidth (b : BitVec 1) : (b.setWidth 32).toNat = b.toNat := by
  rcases bit_cases b with rfl | rfl <;> decide

/-- and the signed reading of the extension is that natural value too. -/
theorem toInt_setWidth (b : BitVec 1) : (b.setWidth 32).toInt = (b.toNat : ℤ) := by
  rcases bit_cases b with rfl | rfl <;> decide

/-- At the ideal instance the float of a widened bit is the real 0 or 1. -/
theorem sitofp_bit (b : BitVec 1) :
    FloatOps.sitofp (F := Ideal) .f32 (b.setWidth 32) = ((b.toNat : ℝ) : EReal) := by
  show ((((b.setWidth 32).toInt : ℤ) : ℝ) : EReal) = _
  rw [toInt_setWidth]
  norm_cast

/-- A wrapping sum of 32-bit words over a finite set, from `init`: its natural value is the sum of the natural
    values modulo 2³². -/
theorem toNat_fold_addi {ι : Type} [DecidableEq ι] (s : Finset ι) (w : ι → BitVec 32) (init : BitVec 32) :
    (s.fold IntOp.addi init w).toNat = (init.toNat + ∑ i ∈ s, (w i).toNat) % 2 ^ 32 := by
  induction s using Finset.cons_induction with
  | empty => simp [Nat.mod_eq_of_lt init.isLt]
  | cons a S ha ih =>
    rw [Finset.fold_cons, Finset.sum_cons]
    show (w a + Finset.fold IntOp.addi init w S).toNat = _
    rw [BitVec.toNat_add, ih]
    omega

/-- The sum of the natural values of one-bit words over a finite set is at most the set's size. -/
theorem sum_bits_le {ι : Type} (s : Finset ι) (b : ι → BitVec 1) : ∑ i ∈ s, (b i).toNat ≤ s.card := by
  calc ∑ i ∈ s, (b i).toNat ≤ ∑ _i ∈ s, 1 := Finset.sum_le_sum fun i _ => toNat_le_one (b i)
    _ = s.card := by simp

/-- So the wrapping sum from 0 of widened bits over a set of fewer than 2³² indices is the word of their count. -/
theorem fold_addi_bits {ι : Type} [DecidableEq ι] (s : Finset ι) (b : ι → BitVec 1) (hs : s.card < 2 ^ 32) :
    s.fold IntOp.addi 0#32 (fun i => (b i).setWidth 32) = BitVec.ofNat 32 (∑ i ∈ s, (b i).toNat) := by
  apply BitVec.eq_of_toNat_eq
  rw [toNat_fold_addi, BitVec.toNat_ofNat]
  simp only [toNat_setWidth]
  simp

/-- The signed reading of the word of a natural below 2³¹ is that natural. -/
theorem toInt_ofNat (n : ℕ) (hn : n < 2 ^ 31) : (BitVec.ofNat 32 n).toInt = (n : ℤ) := by
  rw [BitVec.toInt_eq_toNat_cond, BitVec.toNat_ofNat]
  have : n % 2 ^ 32 = n := Nat.mod_eq_of_lt (by omega)
  rw [this]
  split <;> omega

/-- The signed maximum of a count word with 1 is the word of the larger of the count and 1. -/
theorem maxsi_one (n : ℕ) (hn : n < 2 ^ 31) :
    IntOp.maxsi (BitVec.ofNat 32 n) 1#32 = BitVec.ofNat 32 (max n 1) := by
  unfold IntOp.maxsi BitVec.slt
  rw [toInt_ofNat n hn]
  have h1 : (1#32 : BitVec 32).toInt = 1 := by decide
  rw [h1]
  by_cases h : 1 < n
  · have : max n 1 = n := by omega
    simp [this, h]
  · have hm : max n 1 = 1 := by omega
    have : ¬ ((1 : ℤ) < (n : ℤ)) := by omega
    simp [hm, this]

/-- Its float, at the ideal instance, is the larger of the count and 1 as an extended real. -/
theorem sitofp_maxsi_one (n : ℕ) (hn : n < 2 ^ 31) :
    FloatOps.sitofp (F := Ideal) .f32 (IntOp.maxsi (BitVec.ofNat 32 n) 1#32) = max ((n : ℝ) : EReal) 1 := by
  rw [maxsi_one n hn]
  show ((((BitVec.ofNat 32 (max n 1)).toInt : ℤ) : ℝ) : EReal) = _
  rw [toInt_ofNat _ (by omega)]
  by_cases h : 1 ≤ n
  · rw [max_eq_left h, max_eq_left (by exact_mod_cast h)]
    norm_cast
  · have h0 : n = 0 := by omega
    subst h0
    simp

/-- The count word equals the zero word exactly when the count is zero. -/
theorem cmpi_eq_zero (n : ℕ) (hn : n < 2 ^ 31) :
    IntOp.cmpi .eq (BitVec.ofNat 32 n) 0#32 = BitVec.ofBool (decide (((n : ℝ) : EReal) = 0)) := by
  show BitVec.ofBool (BitVec.ofNat 32 n == 0#32) = _
  by_cases h : n = 0
  · subst h; simp
  · have h1 : ¬ (BitVec.ofNat 32 n = 0#32) := by
      intro e
      have := congrArg BitVec.toNat e
      rw [BitVec.toNat_ofNat, Nat.mod_eq_of_lt (by omega)] at this
      exact h (by simpa using this)
    have h2 : ¬ (((n : ℝ) : EReal) = 0) := by
      intro e
      have : (n : ℝ) = 0 := by exact_mod_cast e
      exact h (by exact_mod_cast this)
    rw [beq_eq_false_iff_ne.mpr h1, decide_eq_false h2]

end Cert.Words
-- ==== Proof.Spec.lean ====
import Idealize.ShloMosaic.PureOps.Ideal.Laws
import Idealize.ShloMosaic.Lib.ValueIdx
import proofs.«155842_j2808908612055_2_alg».proof.Proof.Words

/-!
  The scalar mathematics of the class-range loss, over the extended reals.

  Five closed ranges `[lo k, hi k]` (k = 0 … 4: [-1, 1], [-1, -1/2], [-1/2, 0], [0, 1/2], [1/2, 1]).
    * `bitOf`: the one-bit word "x is in the range"; `ind k` its float, the real 0 or 1.
    * `clsOf`: the class number of x, the last range that holds it (0 when none does); `maskOf` the rescaled
      class image `2·cls/4 − 1`.
    * `hot`: the float of "lane w is lane j"; `laneAcc`: what an accumulator lane holds after the body has added
      to it the five per-class block totals, each multiplied by its lane's one-hot factor. On lane k < 5 that is the
      old value plus the k-th total, because `0 · c = 0` and `1 · c = c` for EVERY extended real c.
    * `lossOf C S`: the per-class loss from the class's count C and masked sum S: 0 if C = 0, else S / max(C, 1),
      times the weight 0.2. The reference computes the count as a 32-bit integer; for a count below 2³¹ its
      integer maximum, integer test and conversion give the same extended reals (`ref_loss_eq`).
-/

open scoped BigOperators

noncomputable section

namespace Cert.Spec

open Idealize.ShloMosaic

/-- The float zero both programs write as the pattern of `+0.0`. -/
abbrev Z : Ideal .f32 := FloatOps.ofBits .f32 0x00000000#32

theorem Z_eq : (Z : EReal) = 0 := Ideal.ofBits_zero_f32

/-- The float one. -/
abbrev One : Ideal .f32 := FloatOps.ofBits .f32 0x3F800000#32

theorem One_eq : (One : EReal) = 1 := by
  exact IdealRules.sign_bit.ideal_onePat .f32

/-- Lower and upper ends of the five ranges, as the bit patterns both programs print. -/
def lo : Fin 5 → BitVec 32
  | 0 => 0xBF800000#32 | 1 => 0xBF800000#32 | 2 => 0xBF000000#32 | 3 => 0x00000000#32 | 4 => 0x3F000000#32
def hi : Fin 5 → BitVec 32
  | 0 => 0x3F800000#32 | 1 => 0xBF000000#32 | 2 => 0x00000000#32 | 3 => 0x3F000000#32 | 4 => 0x3F800000#32

/-- "x lies in [l, h]" as a one-bit word. -/
def bitOf (l h : BitVec 32) (x : Ideal .f32) : BitVec 1 :=
  IntOp.andi (FloatOps.cmpf .oge x (FloatOps.ofBits .f32 l)) (FloatOps.cmpf .ole x (FloatOps.ofBits .f32 h))

/-- The indicator of range k as a float: the real 0 or 1. -/
def ind (k : Fin 5) (x : Ideal .f32) : Ideal .f32 := FloatOps.sitofp .f32 ((bitOf (lo k) (hi k) x).setWidth 32)

theorem ind_eq (k : Fin 5) (x : Ideal .f32) : ind k x = (((bitOf (lo k) (hi k) x).toNat : ℝ) : EReal) :=
  Words.sitofp_bit _

/-- The class number: the last range that holds x wins, 0 when none does. -/
def clsOf (x : Ideal .f32) : BitVec 32 :=
  Scalar.select (bitOf (lo 4) (hi 4) x) 4#32 (Scalar.select (bitOf (lo 3) (hi 3) x) 3#32
    (Scalar.select (bitOf (lo 2) (hi 2) x) 2#32 (Scalar.select (bitOf (lo 1) (hi 1) x) 1#32
      (Scalar.select (bitOf (lo 0) (hi 0) x) 0#32 0#32))))

/-- The class image: `2 · cls / 4 − 1`. -/
def maskOf (x : Ideal .f32) : Ideal .f32 :=
  FloatOps.subf (FloatOps.divf (FloatOps.mulf (FloatOps.ofBits .f32 0x40000000#32) (FloatOps.sitofp .f32 (clsOf x)))
    (FloatOps.ofBits .f32 0x40800000#32)) (FloatOps.ofBits .f32 0x3F800000#32)

/-- The absolute difference of the two images at an element. -/
def absdiff (a b : Ideal .f32) : Ideal .f32 := FloatOps.absf (FloatOps.subf a b)

/-- "Lane w is lane j", as a float. -/
def hot (w j : BitVec 32) : Ideal .f32 := FloatOps.sitofp .f32 ((IntOp.cmpi .eq w j).setWidth 32)

theorem hot_ofNat (a j : ℕ) (ha : a < 2 ^ 32) (hj : j < 2 ^ 32) :
    hot (BitVec.ofNat 32 a) (BitVec.ofNat 32 j) = if a = j then (1 : EReal) else 0 := by
  unfold hot
  rw [Words.sitofp_bit]
  show ((((BitVec.ofBool (BitVec.ofNat 32 a == BitVec.ofNat 32 j)).toNat : ℕ) : ℝ) : EReal) = _
  by_cases h : a = j
  · subst h; simp
  · have hne : ¬ (BitVec.ofNat 32 a = BitVec.ofNat 32 j) := by
      intro e
      have := congrArg BitVec.toNat e
      rw [BitVec.toNat_ofNat, BitVec.toNat_ofNat, Nat.mod_eq_of_lt ha, Nat.mod_eq_of_lt hj] at this
      exact h this
    rw [beq_eq_false_iff_ne.mpr hne, if_neg h]
    simp

/-- An accumulator lane after the body: the old value plus the five block totals through their one-hot factors, in
    the body's order of additions. -/
def laneAcc (w : BitVec 32) (p c0 c1 c2 c3 c4 : EReal) : EReal :=
  p + (((((Z + hot w 0#32 * c0) + hot w 1#32 * c1) + hot w 2#32 * c2) + hot w 3#32 * c3) + hot w 4#32 * c4)

/-- On lane k < 5 the body adds exactly the k-th total. -/
theorem laneAcc_lane (k : Fin 5) (p : EReal) (c : Fin 5 → EReal) :
    laneAcc (BitVec.ofNat 32 k.val) p (c 0) (c 1) (c 2) (c 3) (c 4) = p + c k := by
  unfold laneAcc
  have h0 := hot_ofNat k.val 0 (by omega) (by omega)
  have h1 := hot_ofNat k.val 1 (by omega) (by omega)
  have h2 := hot_ofNat k.val 2 (by omega) (by omega)
  have h3 := hot_ofNat k.val 3 (by omega) (by omega)
  have h4 := hot_ofNat k.val 4 (by omega) (by omega)
  rw [show (0#32 : BitVec 32) = BitVec.ofNat 32 0 from rfl, show (1#32 : BitVec 32) = BitVec.ofNat 32 1 from rfl,
    show (2#32 : BitVec 32) = BitVec.ofNat 32 2 from rfl, show (3#32 : BitVec 32) = BitVec.ofNat 32 3 from rfl,
    show (4#32 : BitVec 32) = BitVec.ofNat 32 4 from rfl, h0, h1, h2, h3, h4, Z_eq]
  fin_cases k <;> simp

/-- The per-class loss from the class's count and masked sum. -/
def lossOf (C S : EReal) : EReal :=
  FloatOps.mulf (F := Ideal) (φ := .f32)
    (Scalar.select (FloatOps.cmpf (F := Ideal) (φ := .f32) .oeq C Z) Z (FloatOps.hostDivf (F := Ideal) (φ := .f32) S (FloatOps.maximumf (F := Ideal) (φ := .f32) C One)))
    (FloatOps.ofBits .f32 0x3E4CCCCD#32)

/-- The reference's loss, whose count is a 32-bit integer word, is the same function of the count as a real. -/
theorem ref_loss_eq (n : ℕ) (hn : n < 2 ^ 31) (S : EReal) :
    FloatOps.mulf (F := Ideal) (φ := .f32)
      (Scalar.select (IntOp.cmpi .eq (BitVec.ofNat 32 n) 0#32) Z
        (FloatOps.hostDivf (F := Ideal) (φ := .f32) S (FloatOps.sitofp .f32 (IntOp.maxsi (BitVec.ofNat 32 n) 1#32))))
      (FloatOps.ofBits .f32 0x3E4CCCCD#32)
    = lossOf ((n : ℝ) : EReal) S := by
  unfold lossOf
  rw [Words.cmpi_eq_zero n hn, Words.sitofp_maxsi_one n hn]
  show _ = FloatOps.mulf (F := Ideal) (φ := .f32) (Scalar.select (BitVec.ofBool (decide (((n : ℝ) : EReal) = Z))) Z
    (Ideal.div S (max ((n : ℝ) : EReal) One))) _
  rw [Z_eq, One_eq]
  rfl

end Cert.Spec

end
-- ==== Proof.TileSum.lean ====
import Idealize.ShloMosaic.PureOps.Ideal.Laws
import Idealize.ShloMosaic.Lib.ValueIdx
import Idealize.ShloMosaic.Lib.Pipeline.Value

/-!
  The total of a [1, 1, 512, 1024] block, as the kernel takes it.

  The body sums a block over its 1024 lanes (one sum per row), views the 512 row sums as a column, sums the column,
  and extracts the one element left. At the ideal instance, where a reduction is the exact sum, that element is the
  double sum over the block's rows and lanes.
-/

open scoped BigOperators

noncomputable section

namespace Cert.TileSum

open Idealize.ShloMosaic Idealize.ShloMosaic.ValueIdx

/-- The lane sums' inserted index: row `r`, lane `l` of the block. -/
theorem lift_lane (h1 : (⟨4, ![1, 1, 512, 1024]⟩ : Shape).Reduces [3] ⟨3, ![1, 1, 512]⟩) (r : Fin 512) (l : Fin 1024) :
    h1.lift (ix3 (0 : Fin 1) (0 : Fin 1) r) l = ix4 (0 : Fin 1) (0 : Fin 1) r l := by
  funext a
  match a with
  | ⟨0, _⟩ => exact Fin.ext rfl
  | ⟨1, _⟩ => exact Fin.ext rfl
  | ⟨2, _⟩ => exact Fin.ext rfl
  | ⟨3, _⟩ => exact Fin.ext rfl

/-- The block's total as the body computes it: lane sums, the column of row sums summed, the one element extracted. -/
def tot (v : FVec Ideal ⟨4, ![1, 1, 512, 1024]⟩ .f32)
    (h1 : (⟨4, ![1, 1, 512, 1024]⟩ : Shape).Reduces [3] ⟨3, ![1, 1, 512]⟩)
    (h2 : (⟨3, ![1, 1, 512]⟩ : Shape).ShapeCasts ⟨4, ![1, 1, 512, 1]⟩)
    (h3 : (⟨4, ![1, 1, 512, 1]⟩ : Shape).Reduces [2] ⟨3, ![1, 1, 1]⟩)
    (h4 : (⟨3, ![1, 1, 1]⟩ : Shape).ShapeCasts ⟨4, ![1, 1, 1, 1]⟩)
    (h5 : ∀ a, (![0, 0, 0, 0] : Fin 4 → Nat) a < (⟨4, ![1, 1, 1, 1]⟩ : Shape).size a)
    (hφ : FKind.Formats .f32) (hacc : (0x00000000#32 : BitVec FTy.f32.bits) = FKind.neutral .add .f32 hφ) : Ideal .f32 :=
  extractAt ![0, 0, 0, 0] (shapeCast ⟨4, ![1, 1, 1, 1]⟩
    (multiReduction .add [2] ⟨3, ![1, 1, 1]⟩
      (shapeCast ⟨4, ![1, 1, 512, 1]⟩ (multiReduction .add [3] ⟨3, ![1, 1, 512]⟩ v 0x00000000#32 h1 hφ hacc) h2)
      0x00000000#32 h3 hφ hacc) h4) h5

/-- It is the double sum over the block's rows and lanes. -/
theorem tot_eq (v : FVec Ideal ⟨4, ![1, 1, 512, 1024]⟩ .f32)
    (h1 : (⟨4, ![1, 1, 512, 1024]⟩ : Shape).Reduces [3] ⟨3, ![1, 1, 512]⟩)
    (h2 : (⟨3, ![1, 1, 512]⟩ : Shape).ShapeCasts ⟨4, ![1, 1, 512, 1]⟩)
    (h3 : (⟨4, ![1, 1, 512, 1]⟩ : Shape).Reduces [2] ⟨3, ![1, 1, 1]⟩)
    (h4 : (⟨3, ![1, 1, 1]⟩ : Shape).ShapeCasts ⟨4, ![1, 1, 1, 1]⟩)
    (h5 : ∀ a, (![0, 0, 0, 0] : Fin 4 → Nat) a < (⟨4, ![1, 1, 1, 1]⟩ : Shape).size a)
    (hφ : FKind.Formats .f32) (hacc : (0x00000000#32 : BitVec FTy.f32.bits) = FKind.neutral .add .f32 hφ) :
    tot v h1 h2 h3 h4 h5 hφ hacc = ∑ r : Fin 512, ∑ l : Fin 1024, v (ix4 (0 : Fin 1) (0 : Fin 1) r l) := by
  unfold tot extractAt
  refine (shapeCast_apply _ h4 _ (ix3 (0 : Fin 1) (0 : Fin 1) (0 : Fin 1)) ?_).trans ?_
  · rw [Shape.rowMajor_val_three, Shape.rowMajor_val_four]
    rfl
  refine (Ideal.multiReduction_add_single _ _ h3 hφ hacc _).trans ?_
  refine Finset.sum_congr rfl fun r _ => ?_
  refine (shapeCast_apply _ h2 _ (ix3 (0 : Fin 1) (0 : Fin 1) (r : Fin 512)) ?_).trans ?_
  · rw [Shape.rowMajor_val_three, Shape.rowMajor_val_four]
    show ((0 : ℕ) * 1 + 0) * 512 + r.val = (((0 : ℕ) * 1 + 0) * 512 + r.val) * 1 + 0
    omega
  refine (Ideal.multiReduction_add_single v _ h1 hφ hacc _).trans ?_
  exact Finset.sum_congr rfl fun l _ => congrArg v (lift_lane h1 r l)

end Cert.TileSum

end
-- ==== Proof.BlockValue.lean ====
import proofs.«155842_j2808908612055_2_alg».proof.Proof.Lanes
import proofs.«155842_j2808908612055_2_alg».proof.Proof.Spec
import proofs.«155842_j2808908612055_2_alg».proof.Proof.TileSum

/-!
  The body's three block functions at the ideal instance, read at an index.

    * the class block at an element is `maskOf` of the real image's element;
    * an accumulator lane after a point is `laneAcc` of the lane number, the lane found and the block's five totals,
      so on lane `k < 5` it is the lane found plus the `k`-th total: for the counts the double sum over the block's
      rows and lanes of the class indicator, for the sums that of the indicator times the absolute difference.
-/

open scoped BigOperators

noncomputable section

open Idealize.ShloMosaic Idealize.ShloMosaic.TcCoe Idealize.SL.Sem

namespace Cert.KernelIdeal.BlockValue

open Cert.KernelIdeal Cert.KernelIdeal.Gen Cert.KernelIdeal.Pieces Cert.KernelIdeal.Lanes Cert.Spec Idealize.ShloMosaic.ValueIdx

/-- The class image of an element is the specification's. -/
theorem maskElt_eq (x : Ideal .f32) : maskElt (F := Ideal) x = maskOf x := rfl

/-- A block's total, at the ideal instance, is the double sum over the block's rows and lanes. -/
theorem totF_eq (v : FVec Ideal S1x1x512x1024 .f32) :
    totF (F := Ideal) v = ∑ r : Fin 512, ∑ l : Fin 1024, v (ix4 (0 : Fin 1) (0 : Fin 1) r l) := by
  have h := TileSum.tot_eq v reduces_S1x1x512x1024_S1x1x512 shapeCasts_S1x1x512_S1x1x512x1 reduces_S1x1x512x1_S1x1x1
    shapeCasts_S1x1x1_S1x1x1x1 inpos_S1x1x1x1_p0_0_0_0 (.inl rfl) rfl
  unfold TileSum.tot at h
  unfold totF
  exact h

/-- The five classes' indicator blocks, as the body computes them. -/
theorem mf0 (x1 : Vec Ideal S1x1x512x1024 .f32) : k0_pay9 (F := Ideal) x1 = fun z => ind 0 (x1 z) := rfl
theorem mf1 (x1 : Vec Ideal S1x1x512x1024 .f32) : k0_pay14 (F := Ideal) x1 = fun z => ind 1 (x1 z) := rfl
theorem mf2 (x1 : Vec Ideal S1x1x512x1024 .f32) : k0_pay20 (F := Ideal) x1 = fun z => ind 2 (x1 z) := rfl
theorem mf3 (x1 : Vec Ideal S1x1x512x1024 .f32) : k0_pay25 (F := Ideal) x1 = fun z => ind 3 (x1 z) := rfl
theorem mf4 (x1 : Vec Ideal S1x1x512x1024 .f32) : k0_pay30 (F := Ideal) x1 half = fun z => ind 4 (x1 z) := rfl

/-- The absolute-difference block. -/
theorem ad (x0 x1 : Vec Ideal S1x1x512x1024 .f32) : k0_pay4 (F := Ideal) x0 x1 = fun z => absdiff (x0 z) (x1 z) := rfl

/-- The product of two blocks, element by element. -/
theorem mulf_fun (f g : S1x1x512x1024.Idx → Ideal .f32) :
    mulf (F := Ideal) (fun z => f z) (fun z => g z) = fun z => f z * g z := rfl

/-- The lane number of lane `κ`. -/
theorem lanes_at (κ : Fin 128) : lanes (ix3 (0 : Fin 1) (0 : Fin 1) κ) = BitVec.ofNat 32 κ.val :=
  iota_single_apply .tc S1x1x128 32 (2 : Fin 3) iota_S1x1x128_d2_w32 _

/-- The one-hot combination at a lane, over the extended reals. -/
theorem lanesUpd_apply (c0 c1 c2 c3 c4 : Ideal .f32) (p : EReal) (y : S1x1x128.Idx) :
    p + lanesUpd (F := Ideal) c0 c1 c2 c3 c4 y = laneAcc (lanes y) p c0 c1 c2 c3 c4 := rfl

/-- Lane `k` of an accumulator block, for a class `k < 5`. -/
abbrev laneOf (k : Fin 5) : S1x1x128.Idx := ix3 (0 : Fin 1) (0 : Fin 1) (⟨k.val, by have := k.isLt; omega⟩ : Fin 128)

/-- On a class's lane the count lanes gain the number of the block's elements in the class's range. -/
theorem cntAcc_lane (x1 : Vec Ideal S1x1x512x1024 .f32) (prev : Vec Ideal S1x1x128 .f32) (k : Fin 5) :
    cntAcc (F := Ideal) x1 prev (laneOf k)
      = prev (laneOf k) + ∑ r : Fin 512, ∑ l : Fin 1024, ind k (x1 (ix4 (0 : Fin 1) (0 : Fin 1) r l)) := by
  have hs : cntAcc (F := Ideal) x1 prev (laneOf k)
      = (shapeCast S1x1x128 prev shapeCasts_S1x1x128_S1x1x128) (laneOf k)
        + lanesUpd (F := Ideal) (totF (k0_pay9 x1)) (totF (k0_pay14 x1)) (totF (k0_pay20 x1)) (totF (k0_pay25 x1))
            (totF (k0_pay30 x1 half)) (laneOf k) := congrFun (cntAcc_struct x1 prev) (laneOf k)
  rw [hs, shapeCast_self, lanesUpd_apply, lanes_at, mf0, mf1, mf2, mf3, mf4]
  refine (laneAcc_lane k _ fun k' => totF fun z => ind k' (x1 z)).trans ?_
  exact congrArg (prev (laneOf k) + ·) (totF_eq _)

/-- On a class's lane the sum lanes gain the sum of the absolute differences over those elements. -/
theorem sumAcc_lane (x0 x1 : Vec Ideal S1x1x512x1024 .f32) (prev : Vec Ideal S1x1x128 .f32) (k : Fin 5) :
    sumAcc (F := Ideal) x0 x1 prev (laneOf k)
      = prev (laneOf k) + ∑ r : Fin 512, ∑ l : Fin 1024,
          ind k (x1 (ix4 (0 : Fin 1) (0 : Fin 1) r l)) * absdiff (x0 (ix4 (0 : Fin 1) (0 : Fin 1) r l)) (x1 (ix4 (0 : Fin 1) (0 : Fin 1) r l)) := by
  have hs : sumAcc (F := Ideal) x0 x1 prev (laneOf k)
      = (shapeCast S1x1x128 prev shapeCasts_S1x1x128_S1x1x128) (laneOf k)
        + lanesUpd (F := Ideal) (totF (mulf (k0_pay9 x1) (k0_pay4 x0 x1))) (totF (mulf (k0_pay14 x1) (k0_pay4 x0 x1)))
            (totF (mulf (k0_pay20 x1) (k0_pay4 x0 x1))) (totF (mulf (k0_pay25 x1) (k0_pay4 x0 x1)))
            (totF (mulf (k0_pay30 x1 half) (k0_pay4 x0 x1))) (laneOf k) := congrFun (sumAcc_struct x0 x1 prev) (laneOf k)
  rw [hs, shapeCast_self, lanesUpd_apply, lanes_at, mf0, mf1, mf2, mf3, mf4, ad]
  simp only [mulf_fun]
  refine (laneAcc_lane k _ fun k' => totF fun z => ind k' (x1 z) * absdiff (x0 z) (x1 z)).trans ?_
  exact congrArg (prev (laneOf k) + ·) (totF_eq _)

/-- The zero lanes hold the float zero. -/
theorem zeroLanes_apply (y : S1x1x128.Idx) : (zeroLanes (F := Ideal)) y = Z := rfl

end Cert.KernelIdeal.BlockValue

end
-- ==== Proof.LossSpec.lean ====
import proofs.«155842_j2808908612055_2_alg».proof.Proof.Spec
import proofs.«155842_j2808908612055_2_alg».proof.Proof.Sums

/-!
  The three results as functions of the two images, over the extended reals.

  For each class `k`: `cnt k` the NUMBER of elements of the real image in the class's range, `sm k` the sum of the
  absolute differences of the two images over those elements, `lossK k` the class's loss. The results are the
  total of the five losses from zero, the vector of the five losses, and the class image.

  Two regroupings of a sum over the image serve the two programs: as it stands (the reference sums the whole image at
  once) and batch by batch, each batch's first row tile added to zero and its second added to that (the kernel).
-/

open scoped BigOperators

noncomputable section

namespace Cert.Spec

open Idealize.ShloMosaic Idealize.ShloMosaic.ValueIdx Cert.Sums

/-- An image: 16 batches, 1 channel, 1024 rows, 1024 lanes. -/
abbrev ImgIdx : Type := (⟨4, ![16, 1, 1024, 1024]⟩ : Shape).Idx

/-- The number of elements of the real image in class `k`'s range. -/
def cnt (k : Fin 5) (A1 : ImgIdx → EReal) : ℕ := ∑ i, (bitOf (lo k) (hi k) (A1 i)).toNat

/-- The sum of the absolute differences over the elements of class `k`. -/
def sm (k : Fin 5) (A0 A1 : ImgIdx → EReal) : EReal := ∑ i, ind k (A1 i) * absdiff (A0 i) (A1 i)

/-- Class `k`'s loss. -/
def lossK (k : Fin 5) (A0 A1 : ImgIdx → EReal) : EReal := lossOf ((cnt k A1 : ℝ) : EReal) (sm k A0 A1)

/-- The five losses. -/
def lossVec (A0 A1 : ImgIdx → EReal) : (⟨1, ![5]⟩ : Shape).Idx → EReal := fun i => lossK ⟨(i 0).val, (i 0).isLt⟩ A0 A1

/-- Their total, from zero. -/
def lossTot (A0 A1 : ImgIdx → EReal) : (⟨0, ![]⟩ : Shape).Idx → EReal := fun _ => Z + ∑ k : Fin 5, lossK k A0 A1

/-- The class image. -/
def maskImg (A1 : ImgIdx → EReal) : ImgIdx → EReal := fun i => maskOf (A1 i)

/-- An image has 2²⁴ elements, -/
theorem card_img : Fintype.card ImgIdx = 2 ^ 24 := by
  rw [card_idx4]
  norm_num

/-- so a class's count is below 2³¹ -/
theorem cnt_lt (k : Fin 5) (A1 : ImgIdx → EReal) : cnt k A1 < 2 ^ 31 := by
  have h := Words.sum_bits_le (Finset.univ : Finset ImgIdx) fun i => bitOf (lo k) (hi k) (A1 i)
  rw [Finset.card_univ, card_img] at h
  unfold cnt
  omega

/-- and, as an extended real, is the sum of the class's indicator over the image. -/
theorem cnt_coe (k : Fin 5) (A1 : ImgIdx → EReal) : ((cnt k A1 : ℝ) : EReal) = ∑ i, ind k (A1 i) := by
  unfold cnt
  rw [coe_nat_sum]
  exact Finset.sum_congr rfl fun i _ => (ind_eq k (A1 i)).symm

/-- A sum over the image, batch by batch: the first row tile's part added to zero, the second's added to that,
    and the batches' parts added to zero. -/
theorem sum_by_tiles (f : ImgIdx → EReal) :
    Z + ∑ b : Fin 16, ((Z + ∑ r : Fin 512, ∑ l : Fin 1024, f (ix4 b (0 : Fin 1) (row 0 r) l))
        + ∑ r : Fin 512, ∑ l : Fin 1024, f (ix4 b (0 : Fin 1) (row 1 r) l))
      = ∑ i, f i := by
  rw [sum_idx4 f, Z_eq, zero_add]
  refine Finset.sum_congr rfl fun b _ => ?_
  rw [sum_fin_one, sum_rows, zero_add]

end Cert.Spec

end
-- ==== Proof.KernelValue.lean ====
import proofs.«155842_j2808908612055_2_alg».proof.Proof.KernelTail
import proofs.«155842_j2808908612055_2_alg».proof.Proof.BlockValue
import proofs.«155842_j2808908612055_2_alg».proof.Proof.LossSpec
import Idealize.ShloMosaic.Lib.IdealHost

/-!
  The kernel program's results, at the ideal instance, are the specification's functions of the two images.

  Row `b`, lane `k` of the count array is zero plus batch `b`'s first row tile's count plus its second's; summed
  over the batches from zero that is the class's count over the whole image (`sum_by_tiles`). The same for the sums.
  So each of the five losses is `lossK`, and their total and the class image follow.
-/

open scoped BigOperators

noncomputable section

open Idealize.ShloMosaic Idealize.ShloMosaic.TcCoe Idealize.SL.Sem

namespace Cert.KernelIdeal.Value

open Cert.KernelIdeal Cert.KernelIdeal.Gen Cert.KernelIdeal.Pieces Cert.KernelIdeal.Arrays Cert.KernelIdeal.Tail
  Cert.KernelIdeal.BlockValue Cert.Spec Idealize.ShloMosaic.ValueIdx

variable (m : (ℓ : Loc nD τ sig) → Buf (Elt Ideal) ℓ)

/-- Lane `k` as a lane of the 128. -/
abbrev lane128 (k : Fin 5) : Fin 128 := ⟨k.val, by have := k.isLt; omega⟩

/-- The batches' inserted index: batch `b` of class `k`'s column. -/
theorem lift_batch (h : S16x5.Reduces [0] S5) (k : Fin 5) (b : Fin 16) : h.lift (ix1 k) b = ix2 b k := by
  funext a
  match a with
  | ⟨0, _⟩ => exact Fin.ext rfl
  | ⟨1, _⟩ => exact Fin.ext rfl

/-- Lane `k` of an accumulator array summed over the batches, from zero. -/
theorem perClass_apply (A : S16x1x128.Idx → Ideal .f32) (k : Fin 5) :
    perClass (F := Ideal) A (ix1 k) = Z + ∑ b : Fin 16, A (ix3 b (0 : Fin 1) (lane128 k)) := by
  unfold perClass
  rw [hostReduceAdd_apply]
  have h : S16x5.Reduces [0] S5 := by decide
  refine (Ideal.hostReduceAdd_single reducesTo_S16x5_S5_d0 h _ _ _).trans ?_
  show Z + ∑ b : Fin 16, (shapeCast S16x5 (extractStridedSlice S16x1x5 ![0, 0, 0] A slices_S16x1x128_S16x1x5_0_0_0)
    shapeCasts_S16x1x5_S16x5) (h.lift (ix1 k) b) = _
  refine congrArg (Z + ·) (Finset.sum_congr rfl fun b _ => ?_)
  rw [lift_batch h k b]
  refine (shapeCast_apply _ shapeCasts_S16x1x5_S16x5 _ (ix3 (b : Fin 16) (0 : Fin 1) (k : Fin 5)) ?_).trans ?_
  · rw [Shape.rowMajor_val_three, Shape.rowMajor_val_two]
    show (b.val * 1 + 0) * 5 + k.val = b.val * 5 + k.val
    omega
  refine extractStridedSlice_apply _ A _ _ (ix3 b (0 : Fin 1) (lane128 k)) fun a => ?_
  match a with
  | ⟨0, _⟩ => show b.val = 0 + b.val; omega
  | ⟨1, _⟩ => show (0 : ℕ) = 0 + 0; rfl
  | ⟨2, _⟩ => show k.val = 0 + k.val; omega

/-- Row `b`, lane `k` of the count array: zero, plus the first row tile's count, plus the second's. -/
theorem G3_apply (c : Dev nD) (b : Fin 16) (k : Fin 5) :
    G3 m c (ix3 b (0 : Fin 1) (lane128 k))
      = (Z + ∑ r : Fin 512, ∑ l : Fin 1024, ind k (V m c main_arg1 (ix4 b (0 : Fin 1) (Sums.row 0 r) l)))
        + ∑ r : Fin 512, ∑ l : Fin 1024, ind k (V m c main_arg1 (ix4 b (0 : Fin 1) (Sums.row 1 r) l)) := by
  show cntLanes m c (pt b 1) (laneOf k) = _
  unfold cntLanes
  rw [cntAcc_lane, cntAcc_lane, before_pt_one, zeroLanes_apply]
  simp only [iblk1_at]

/-- Row `b`, lane `k` of the sum array likewise. -/
theorem G4_apply (c : Dev nD) (b : Fin 16) (k : Fin 5) :
    G4 m c (ix3 b (0 : Fin 1) (lane128 k))
      = (Z + ∑ r : Fin 512, ∑ l : Fin 1024, ind k (V m c main_arg1 (ix4 b (0 : Fin 1) (Sums.row 0 r) l))
            * absdiff (V m c main_arg0 (ix4 b (0 : Fin 1) (Sums.row 0 r) l)) (V m c main_arg1 (ix4 b (0 : Fin 1) (Sums.row 0 r) l)))
        + ∑ r : Fin 512, ∑ l : Fin 1024, ind k (V m c main_arg1 (ix4 b (0 : Fin 1) (Sums.row 1 r) l))
            * absdiff (V m c main_arg0 (ix4 b (0 : Fin 1) (Sums.row 1 r) l)) (V m c main_arg1 (ix4 b (0 : Fin 1) (Sums.row 1 r) l)) := by
  show sumLanes m c (pt b 1) (laneOf k) = _
  unfold sumLanes
  rw [sumAcc_lane, sumAcc_lane, before_pt_one, zeroLanes_apply]
  simp only [iblk1_at, iblk0_at]

/-- Class `k`'s count over the whole image, as the kernel program totals it. -/
theorem perClass_G3 (c : Dev nD) (k : Fin 5) :
    perClass (F := Ideal) (G3 m c) (ix1 k) = ((cnt k (V m c main_arg1) : ℝ) : EReal) := by
  rw [perClass_apply, cnt_coe]
  simp only [G3_apply]
  exact sum_by_tiles fun i => ind k (V m c main_arg1 i)

/-- Class `k`'s sum over the whole image, as the kernel program totals it. -/
theorem perClass_G4 (c : Dev nD) (k : Fin 5) :
    perClass (F := Ideal) (G4 m c) (ix1 k) = sm k (V m c main_arg0) (V m c main_arg1) := by
  rw [perClass_apply]
  simp only [G4_apply]
  exact sum_by_tiles fun i => ind k (V m c main_arg1 i) * absdiff (V m c main_arg0 i) (V m c main_arg1 i)

/-- A loss is `lossOf` of its class's two totals (every operation of `losses` is pointwise). -/
theorem losses_apply (C S : S16x1x128.Idx → Ideal .f32) (i : S5.Idx) :
    losses (F := Ideal) C S i = lossOf (perClass (F := Ideal) C i) (perClass (F := Ideal) S i) := rfl

/-- The five losses are the specification's. -/
theorem losses_eq (c : Dev nD) :
    losses (F := Ideal) (G3 m c) (G4 m c) = lossVec (V m c main_arg0) (V m c main_arg1) := by
  funext i
  obtain ⟨k, rfl⟩ : ∃ k : Fin 5, i = ix1 k := ⟨i 0, eq_ix1 i⟩
  rw [losses_apply, perClass_G3, perClass_G4]
  rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Their total is the specification's. -/
theorem total_eq (c : Dev nD) :
    total (F := Ideal) (losses (F := Ideal) (G3 m c) (G4 m c)) = lossTot (V m c main_arg0) (V m c main_arg1) := by
  rw [losses_eq]
  funext j
  unfold total
  rw [hostReduceAdd_apply]
  refine (Ideal.hostReduceAdd_total reducesTo_S5_S_d0 (fun b => b.elim0) _ _ _).trans ?_
  show Z + ∑ i : S5.Idx, lossVec (V m c main_arg0) (V m c main_arg1) i = Z + ∑ k : Fin 5, lossK k (V m c main_arg0) (V m c main_arg1)
  rw [sum_idx1]
  rfl

/-- The class image is the specification's. -/
theorem G2_eq (c : Dev nD) : G2 m c = maskImg (V m c main_arg1) := rfl

end Cert.KernelIdeal.Value

end
-- ==== Proof.RefValue.lean ====
import proofs.«155842_j2808908612055_2_alg».proof.Proof.RefReadP
import proofs.«155842_j2808908612055_2_alg».proof.Proof.LossSpec
import Idealize.ShloMosaic.PureOps.Reduce

/-!
  The reference's results, at the ideal instance, are the specification's functions of the two images.

  For each of the five classes the reference takes the class's membership bit at every element, counts the set bits
  with a 32-bit integer sum over the whole image, and sums the absolute difference where the bit is set. The integer
  sum of at most 2²⁴ ones is the word of their number; selecting `|a − b|` or zero by a bit is multiplying it by the
  bit's 0 or 1. So each class's loss is `lossK`; the vector joins the five, the total adds them to zero in order,
  and the class image is `maskOf` of each element.
-/

open scoped BigOperators

noncomputable section

open Idealize.ShloMosaic Idealize.ShloMosaic.TcCoe Idealize.SL.Sem

namespace Cert.ReferenceIdeal.RefValue

open Cert.ReferenceIdeal Cert.ReferenceIdeal.Gen Cert.ReferenceIdeal Cert.Spec Idealize.ShloMosaic.ValueIdx

/-- Selecting a value or the float zero by a class's membership bit is multiplying the value by the indicator. -/
theorem select_eq_ind (k : Fin 5) (x d : Ideal .f32) :
    Scalar.select (bitOf (lo k) (hi k) x) d Z = ind k x * d := by
  rw [ind_eq]
  rcases Words.bit_cases (bitOf (lo k) (hi k) x) with h | h
  · rw [h, Z_eq]; simp [Scalar.select]
  · rw [h]; simp [Scalar.select]

/-- The image has fewer than 2³² elements. -/
theorem card_lt : (Finset.univ : Finset S16x1x1024x1024.Idx).card < 2 ^ 32 := by
  rw [Finset.card_univ, show Fintype.card S16x1x1024x1024.Idx = 2 ^ 24 from card_img]
  norm_num

/-! ## Class 0 -/

/-- The class's membership bit at an element. -/
theorem bit_0 (x1 : S16x1x1024x1024.Idx → Ideal .f32) (i : S16x1x1024x1024.Idx) :
    ReadP.val_main_v7 (F := Ideal) x1 i = bitOf (lo 0) (hi 0) (x1 i) := by
  simp only [ReadP.val_main_cst_apply, ReadP.val_main_v3_apply, ReadP.val_main_v4_apply, ReadP.val_main_cst_0_apply, ReadP.val_main_v5_apply, ReadP.val_main_v6_apply, ReadP.val_main_v7_apply]
  rfl

/-- The integer sum of the widened bits over the whole image is the word of the class's count. -/
theorem count_0 (x1 : S16x1x1024x1024.Idx → Ideal .f32) (q : S_.Idx) :
    ReadP.val_main_v10 (F := Ideal) x1 q = BitVec.ofNat 32 (cnt 0 x1) := by
  unfold ReadP.val_main_v10
  rw [Host.reduce_eq_fold]
  rw [Finset.filter_true_of_mem fun i' _ => funext fun b => b.elim0]
  have hw : ReadP.val_main_v9 (F := Ideal) x1 = fun i => (bitOf (lo 0) (hi 0) (x1 i)).setWidth 32 :=
    funext fun i => by rw [ReadP.val_main_v9_apply, bit_0]
  rw [hw]
  exact Words.fold_addi_bits Finset.univ (fun i => bitOf (lo 0) (hi 0) (x1 i)) card_lt

/-- The selected absolute difference at an element. -/
theorem sel_0 (x0 x1 : S16x1x1024x1024.Idx → Ideal .f32) (i : S16x1x1024x1024.Idx) :
    ReadP.val_main_v11 (F := Ideal) x0 x1 i = ind 0 (x1 i) * absdiff (x0 i) (x1 i) := by
  rw [ReadP.val_main_v11_apply, bit_0]
  simp only [ReadP.val_main_v0_apply, ReadP.val_main_v1_apply, ReadP.val_main_cst_3_apply, ReadP.val_main_call1_v0_apply, ReadP.val_main_call1_v1_apply]
  exact select_eq_ind 0 (x1 i) _

/-- Their sum over the whole image, from zero. -/
theorem sum_0 (x0 x1 : S16x1x1024x1024.Idx → Ideal .f32) (q : S_.Idx) :
    ReadP.val_main_v12 (F := Ideal) x0 x1 q = sm 0 x0 x1 := by
  rw [ReadP.val_main_v12_apply]
  show Z + _ = _
  rw [Z_eq, zero_add]
  exact Finset.sum_congr rfl fun i _ => sel_0 x0 x1 i

/-- The class's loss. -/
theorem loss_0 (x0 x1 : S16x1x1024x1024.Idx → Ideal .f32) (q : S_.Idx) :
    ReadP.val_main_v18 (F := Ideal) x0 x1 q = lossK 0 x0 x1 := by
  rw [ReadP.val_main_v18_apply, ReadP.val_main_v17_apply, ReadP.val_main_v15_apply, ReadP.val_main_v16_apply, ReadP.val_main_v14_apply, ReadP.val_main_v13_apply,
    count_0, sum_0]
  exact ref_loss_eq (cnt 0 x1) (cnt_lt 0 x1) (sm 0 x0 x1)

/-! ## Class 1 -/

/-- The class's membership bit at an element. -/
theorem bit_1 (x1 : S16x1x1024x1024.Idx → Ideal .f32) (i : S16x1x1024x1024.Idx) :
    ReadP.val_main_v23 (F := Ideal) x1 i = bitOf (lo 1) (hi 1) (x1 i) := by
  simp only [ReadP.val_main_cst_9_apply, ReadP.val_main_v19_apply, ReadP.val_main_v20_apply, ReadP.val_main_cst_10_apply, ReadP.val_main_v21_apply, ReadP.val_main_v22_apply, ReadP.val_main_v23_apply]
  rfl

/-- The integer sum of the widened bits over the whole image is the word of the class's count. -/
theorem count_1 (x1 : S16x1x1024x1024.Idx → Ideal .f32) (q : S_.Idx) :
    ReadP.val_main_v26 (F := Ideal) x1 q = BitVec.ofNat 32 (cnt 1 x1) := by
  unfold ReadP.val_main_v26
  rw [Host.reduce_eq_fold]
  rw [Finset.filter_true_of_mem fun i' _ => funext fun b => b.elim0]
  have hw : ReadP.val_main_v25 (F := Ideal) x1 = fun i => (bitOf (lo 1) (hi 1) (x1 i)).setWidth 32 :=
    funext fun i => by rw [ReadP.val_main_v25_apply, bit_1]
  rw [hw]
  exact Words.fold_addi_bits Finset.univ (fun i => bitOf (lo 1) (hi 1) (x1 i)) card_lt

/-- The selected absolute difference at an element. -/
theorem sel_1 (x0 x1 : S16x1x1024x1024.Idx → Ideal .f32) (i : S16x1x1024x1024.Idx) :
    ReadP.val_main_v27 (F := Ideal) x0 x1 i = ind 1 (x1 i) * absdiff (x0 i) (x1 i) := by
  rw [ReadP.val_main_v27_apply, bit_1]
  simp only [ReadP.val_main_v0_apply, ReadP.val_main_v1_apply, ReadP.val_main_cst_13_apply, ReadP.val_main_call4_v0_apply, ReadP.val_main_call4_v1_apply]
  exact select_eq_ind 1 (x1 i) _

/-- Their sum over the whole image, from zero. -/
theorem sum_1 (x0 x1 : S16x1x1024x1024.Idx → Ideal .f32) (q : S_.Idx) :
    ReadP.val_main_v28 (F := Ideal) x0 x1 q = sm 1 x0 x1 := by
  rw [ReadP.val_main_v28_apply]
  show Z + _ = _
  rw [Z_eq, zero_add]
  exact Finset.sum_congr rfl fun i _ => sel_1 x0 x1 i

/-- The class's loss. -/
theorem loss_1 (x0 x1 : S16x1x1024x1024.Idx → Ideal .f32) (q : S_.Idx) :
    ReadP.val_main_v34 (F := Ideal) x0 x1 q = lossK 1 x0 x1 := by
  rw [ReadP.val_main_v34_apply, ReadP.val_main_v33_apply, ReadP.val_main_v31_apply, ReadP.val_main_v32_apply, ReadP.val_main_v30_apply, ReadP.val_main_v29_apply,
    count_1, sum_1]
  exact ref_loss_eq (cnt 1 x1) (cnt_lt 1 x1) (sm 1 x0 x1)

/-! ## Class 2 -/

/-- The class's membership bit at an element. -/
theorem bit_2 (x1 : S16x1x1024x1024.Idx → Ideal .f32) (i : S16x1x1024x1024.Idx) :
    ReadP.val_main_v39 (F := Ideal) x1 i = bitOf (lo 2) (hi 2) (x1 i) := by
  simp only [ReadP.val_main_cst_19_apply, ReadP.val_main_v35_apply, ReadP.val_main_v36_apply, ReadP.val_main_cst_20_apply, ReadP.val_main_v37_apply, ReadP.val_main_v38_apply, ReadP.val_main_v39_apply]
  rfl

/-- The integer sum of the widened bits over the whole image is the word of the class's count. -/
theorem count_2 (x1 : S16x1x1024x1024.Idx → Ideal .f32) (q : S_.Idx) :
    ReadP.val_main_v42 (F := Ideal) x1 q = BitVec.ofNat 32 (cnt 2 x1) := by
  unfold ReadP.val_main_v42
  rw [Host.reduce_eq_fold]
  rw [Finset.filter_true_of_mem fun i' _ => funext fun b => b.elim0]
  have hw : ReadP.val_main_v41 (F := Ideal) x1 = fun i => (bitOf (lo 2) (hi 2) (x1 i)).setWidth 32 :=
    funext fun i => by rw [ReadP.val_main_v41_apply, bit_2]
  rw [hw]
  exact Words.fold_addi_bits Finset.univ (fun i => bitOf (lo 2) (hi 2) (x1 i)) card_lt

/-- The selected absolute difference at an element. -/
theorem sel_2 (x0 x1 : S16x1x1024x1024.Idx → Ideal .f32) (i : S16x1x1024x1024.Idx) :
    ReadP.val_main_v43 (F := Ideal) x0 x1 i = ind 2 (x1 i) * absdiff (x0 i) (x1 i) := by
  rw [ReadP.val_main_v43_apply, bit_2]
  simp only [ReadP.val_main_v0_apply, ReadP.val_main_v1_apply, ReadP.val_main_cst_23_apply, ReadP.val_main_call7_v0_apply, ReadP.val_main_call7_v1_apply]
  exact select_eq_ind 2 (x1 i) _

/-- Their sum over the whole image, from zero. -/
theorem sum_2 (x0 x1 : S16x1x1024x1024.Idx → Ideal .f32) (q : S_.Idx) :
    ReadP.val_main_v44 (F := Ideal) x0 x1 q = sm 2 x0 x1 := by
  rw [ReadP.val_main_v44_apply]
  show Z + _ = _
  rw [Z_eq, zero_add]
  exact Finset.sum_congr rfl fun i _ => sel_2 x0 x1 i

/-- The class's loss. -/
theorem loss_2 (x0 x1 : S16x1x1024x1024.Idx → Ideal .f32) (q : S_.Idx) :
    ReadP.val_main_v50 (F := Ideal) x0 x1 q = lossK 2 x0 x1 := by
  rw [ReadP.val_main_v50_apply, ReadP.val_main_v49_apply, ReadP.val_main_v47_apply, ReadP.val_main_v48_apply, ReadP.val_main_v46_apply, ReadP.val_main_v45_apply,
    count_2, sum_2]
  exact ref_loss_eq (cnt 2 x1) (cnt_lt 2 x1) (sm 2 x0 x1)

/-! ## Class 3 -/

/-- The class's membership bit at an element. -/
theorem bit_3 (x1 : S16x1x1024x1024.Idx → Ideal .f32) (i : S16x1x1024x1024.Idx) :
    ReadP.val_main_v55 (F := Ideal) x1 i = bitOf (lo 3) (hi 3) (x1 i) := by
  simp only [ReadP.val_main_cst_29_apply, ReadP.val_main_v51_apply, ReadP.val_main_v52_apply, ReadP.val_main_cst_30_apply, ReadP.val_main_v53_apply, ReadP.val_main_v54_apply, ReadP.val_main_v55_apply]
  rfl

/-- The integer sum of the widened bits over the whole image is the word of the class's count. -/
theorem count_3 (x1 : S16x1x1024x1024.Idx → Ideal .f32) (q : S_.Idx) :
    ReadP.val_main_v58 (F := Ideal) x1 q = BitVec.ofNat 32 (cnt 3 x1) := by
  unfold ReadP.val_main_v58
  rw [Host.reduce_eq_fold]
  rw [Finset.filter_true_of_mem fun i' _ => funext fun b => b.elim0]
  have hw : ReadP.val_main_v57 (F := Ideal) x1 = fun i => (bitOf (lo 3) (hi 3) (x1 i)).setWidth 32 :=
    funext fun i => by rw [ReadP.val_main_v57_apply, bit_3]
  rw [hw]
  exact Words.fold_addi_bits Finset.univ (fun i => bitOf (lo 3) (hi 3) (x1 i)) card_lt

/-- The selected absolute difference at an element. -/
theorem sel_3 (x0 x1 : S16x1x1024x1024.Idx → Ideal .f32) (i : S16x1x1024x1024.Idx) :
    ReadP.val_main_v59 (F := Ideal) x0 x1 i = ind 3 (x1 i) * absdiff (x0 i) (x1 i) := by
  rw [ReadP.val_main_v59_apply, bit_3]
  simp only [ReadP.val_main_v0_apply, ReadP.val_main_v1_apply, ReadP.val_main_cst_33_apply, ReadP.val_main_call10_v0_apply, ReadP.val_main_call10_v1_apply]
  exact select_eq_ind 3 (x1 i) _

/-- Their sum over the whole image, from zero. -/
theorem sum_3 (x0 x1 : S16x1x1024x1024.Idx → Ideal .f32) (q : S_.Idx) :
    ReadP.val_main_v60 (F := Ideal) x0 x1 q = sm 3 x0 x1 := by
  rw [ReadP.val_main_v60_apply]
  show Z + _ = _
  rw [Z_eq, zero_add]
  exact Finset.sum_congr rfl fun i _ => sel_3 x0 x1 i

/-- The class's loss. -/
theorem loss_3 (x0 x1 : S16x1x1024x1024.Idx → Ideal .f32) (q : S_.Idx) :
    ReadP.val_main_v66 (F := Ideal) x0 x1 q = lossK 3 x0 x1 := by
  rw [ReadP.val_main_v66_apply, ReadP.val_main_v65_apply, ReadP.val_main_v63_apply, ReadP.val_main_v64_apply, ReadP.val_main_v62_apply, ReadP.val_main_v61_apply,
    count_3, sum_3]
  exact ref_loss_eq (cnt 3 x1) (cnt_lt 3 x1) (sm 3 x0 x1)

/-! ## Class 4 -/

/-- The class's membership bit at an element. -/
theorem bit_4 (x1 : S16x1x1024x1024.Idx → Ideal .f32) (i : S16x1x1024x1024.Idx) :
    ReadP.val_main_v71 (F := Ideal) x1 i = bitOf (lo 4) (hi 4) (x1 i) := by
  simp only [ReadP.val_main_cst_39_apply, ReadP.val_main_v67_apply, ReadP.val_main_v68_apply, ReadP.val_main_cst_40_apply, ReadP.val_main_v69_apply, ReadP.val_main_v70_apply, ReadP.val_main_v71_apply]
  rfl

/-- The integer sum of the widened bits over the whole image is the word of the class's count. -/
theorem count_4 (x1 : S16x1x1024x1024.Idx → Ideal .f32) (q : S_.Idx) :
    ReadP.val_main_v74 (F := Ideal) x1 q = BitVec.ofNat 32 (cnt 4 x1) := by
  unfold ReadP.val_main_v74
  rw [Host.reduce_eq_fold]
  rw [Finset.filter_true_of_mem fun i' _ => funext fun b => b.elim0]
  have hw : ReadP.val_main_v73 (F := Ideal) x1 = fun i => (bitOf (lo 4) (hi 4) (x1 i)).setWidth 32 :=
    funext fun i => by rw [ReadP.val_main_v73_apply, bit_4]
  rw [hw]
  exact Words.fold_addi_bits Finset.univ (fun i => bitOf (lo 4) (hi 4) (x1 i)) card_lt

/-- The selected absolute difference at an element. -/
theorem sel_4 (x0 x1 : S16x1x1024x1024.Idx → Ideal .f32) (i : S16x1x1024x1024.Idx) :
    ReadP.val_main_v75 (F := Ideal) x0 x1 i = ind 4 (x1 i) * absdiff (x0 i) (x1 i) := by
  rw [ReadP.val_main_v75_apply, bit_4]
  simp only [ReadP.val_main_v0_apply, ReadP.val_main_v1_apply, ReadP.val_main_cst_43_apply, ReadP.val_main_call13_v0_apply, ReadP.val_main_call13_v1_apply]
  exact select_eq_ind 4 (x1 i) _

/-- Their sum over the whole image, from zero. -/
theorem sum_4 (x0 x1 : S16x1x1024x1024.Idx → Ideal .f32) (q : S_.Idx) :
    ReadP.val_main_v76 (F := Ideal) x0 x1 q = sm 4 x0 x1 := by
  rw [ReadP.val_main_v76_apply]
  show Z + _ = _
  rw [Z_eq, zero_add]
  exact Finset.sum_congr rfl fun i _ => sel_4 x0 x1 i

/-- The class's loss. -/
theorem loss_4 (x0 x1 : S16x1x1024x1024.Idx → Ideal .f32) (q : S_.Idx) :
    ReadP.val_main_v82 (F := Ideal) x0 x1 q = lossK 4 x0 x1 := by
  rw [ReadP.val_main_v82_apply, ReadP.val_main_v81_apply, ReadP.val_main_v79_apply, ReadP.val_main_v80_apply, ReadP.val_main_v78_apply, ReadP.val_main_v77_apply,
    count_4, sum_4]
  exact ref_loss_eq (cnt 4 x1) (cnt_lt 4 x1) (sm 4 x0 x1)

/-! ## The three results -/

/-- The total: the five losses added to zero in order. -/
theorem total_eq (x0 x1 : S16x1x1024x1024.Idx → Ideal .f32) :
    ReadP.val_main_v87 (F := Ideal) x0 x1 = lossTot x0 x1 := by
  funext q
  rw [ReadP.val_main_v87_apply, ReadP.val_main_v86_apply, ReadP.val_main_v85_apply, ReadP.val_main_v84_apply, ReadP.val_main_v83_apply,
    loss_0, loss_1, loss_2, loss_3, loss_4]
  show ((((Z + lossK 0 x0 x1) + lossK 1 x0 x1) + lossK 2 x0 x1) + lossK 3 x0 x1) + lossK 4 x0 x1 = Z + ∑ k : Fin 5, lossK k x0 x1
  rw [Fin.sum_univ_five]
  simp only [add_assoc]

/-- One piece of the joined vector: its one axis is the joined axis. -/
theorem piece_axis (b : Fin S1.rank) (hr : S1.rank = S5.rank) (hb : b.cast hr ≠ (0 : Fin S5.rank)) : False :=
  hb (Fin.ext (by have h1 : b.val < 1 := b.isLt; show b.val = 0; omega))

/-- The five pieces of the joined vector, by class. -/
def pieces (x0 x1 : S16x1x1024x1024.Idx → Ideal .f32) : Fin 5 → (S1.Idx → Ideal .f32)
  | 0 => ReadP.val_main_v95 (F := Ideal) x0 x1
  | 1 => ReadP.val_main_v96 (F := Ideal) x0 x1
  | 2 => ReadP.val_main_v97 (F := Ideal) x0 x1
  | 3 => ReadP.val_main_v98 (F := Ideal) x0 x1
  | 4 => ReadP.val_main_v99 (F := Ideal) x0 x1

/-- Each piece holds its class's loss. -/
theorem pieces_apply (x0 x1 : S16x1x1024x1024.Idx → Ideal .f32) (k : Fin 5) (i : S1.Idx) :
    pieces x0 x1 k i = lossK k x0 x1 := by
  fin_cases k
  · show ReadP.val_main_v95 (F := Ideal) x0 x1 i = _
    rw [ReadP.val_main_v95_apply, loss_0]; rfl
  · show ReadP.val_main_v96 (F := Ideal) x0 x1 i = _
    rw [ReadP.val_main_v96_apply, loss_1]; rfl
  · show ReadP.val_main_v97 (F := Ideal) x0 x1 i = _
    rw [ReadP.val_main_v97_apply, loss_2]; rfl
  · show ReadP.val_main_v98 (F := Ideal) x0 x1 i = _
    rw [ReadP.val_main_v98_apply, loss_3]; rfl
  · show ReadP.val_main_v99 (F := Ideal) x0 x1 i = _
    rw [ReadP.val_main_v99_apply, loss_4]; rfl

set_option maxHeartbeats 2000000 in
/-- The vector of the five losses. -/
theorem vec_eq (x0 x1 : S16x1x1024x1024.Idx → Ideal .f32) :
    ReadP.val_main_v100 (F := Ideal) x0 x1 = lossVec x0 x1 := by
  funext i
  obtain ⟨k, rfl⟩ : ∃ k : Fin 5, i = ix1 k := ⟨i 0, eq_ix1 i⟩
  unfold ReadP.val_main_v100
  have h := concatenate_ofFn_unit_apply (t := S5) (s₁ := S1) (0 : Fin S5.rank) (pieces x0 x1) concatenates_S1_S1_S1_S1_S1_S5_d0
    rfl rfl (ix1 k) k rfl (ix1 (0 : Fin 1)) (fun b hb => (piece_axis b rfl hb).elim)
  refine Eq.trans ?_ (h.trans (pieces_apply x0 x1 k _))
  rfl

/-- The class image. -/
theorem mask_eq (x1 : S16x1x1024x1024.Idx → Ideal .f32) :
    ReadP.val_main_v94 (F := Ideal) x1 = maskImg x1 := by
  funext i
  simp only [ReadP.val_main_cst_50_apply, ReadP.val_main_v89_apply, ReadP.val_main_cst_39_apply, ReadP.val_main_v67_apply, ReadP.val_main_v68_apply, ReadP.val_main_cst_40_apply, ReadP.val_main_v69_apply, ReadP.val_main_v70_apply, ReadP.val_main_v71_apply, ReadP.val_main_c_41_apply, ReadP.val_main_call12_v0_apply, ReadP.val_main_cst_29_apply, ReadP.val_main_v51_apply, ReadP.val_main_v52_apply, ReadP.val_main_cst_30_apply, ReadP.val_main_v53_apply, ReadP.val_main_v54_apply, ReadP.val_main_v55_apply, ReadP.val_main_c_31_apply, ReadP.val_main_call9_v0_apply, ReadP.val_main_cst_19_apply, ReadP.val_main_v35_apply, ReadP.val_main_v36_apply, ReadP.val_main_cst_20_apply, ReadP.val_main_v37_apply, ReadP.val_main_v38_apply, ReadP.val_main_v39_apply, ReadP.val_main_c_21_apply, ReadP.val_main_call6_v0_apply, ReadP.val_main_cst_9_apply, ReadP.val_main_v19_apply, ReadP.val_main_v20_apply, ReadP.val_main_cst_10_apply, ReadP.val_main_v21_apply, ReadP.val_main_v22_apply, ReadP.val_main_v23_apply, ReadP.val_main_c_11_apply, ReadP.val_main_call3_v0_apply, ReadP.val_main_cst_apply, ReadP.val_main_v3_apply, ReadP.val_main_v4_apply, ReadP.val_main_cst_0_apply, ReadP.val_main_v5_apply, ReadP.val_main_v6_apply, ReadP.val_main_v7_apply, ReadP.val_main_c_1_apply, ReadP.val_main_call0_v0_apply, ReadP.val_main_c_apply, ReadP.val_main_v2_apply, ReadP.val_main_v8_apply, ReadP.val_main_v24_apply, ReadP.val_main_v40_apply, ReadP.val_main_v56_apply, ReadP.val_main_v72_apply, ReadP.val_main_v88_apply, ReadP.val_main_v90_apply, ReadP.val_main_cst_51_apply, ReadP.val_main_v91_apply, ReadP.val_main_v92_apply, ReadP.val_main_cst_52_apply, ReadP.val_main_v93_apply, ReadP.val_main_v94_apply]
  rfl

end Cert.ReferenceIdeal.RefValue

end
-- ==== Proof.RefEvalArgs.lean ====
import proofs.«155842_j2808908612055_2_alg».proof.Proof.RefRunP
import proofs.«155842_j2808908612055_2_alg».proof.Proof.RefReadP

/-!
  The reference program's run, read back: the two argument buffers.

  The run leaves every buffer at the operations' valuation of it (`StableHlo.after ops`); read at a buffer that
  valuation is, operation by operation, the stages' composed term of the arguments.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

set_option maxRecDepth 8192 in
set_option maxHeartbeats 40000000 in
/-- The first argument is never written. -/
theorem eval_arg0 (m : (ℓ : Loc nD τ sig) → Buf (Elt F) ℓ) (c : Dev nD) :
    StableHlo.after ops (fun b' => m (c, b')) (Proc.devRef .tc main_arg0) = m ((c.tc : Thread nD τ).loc main_arg0) := by
  after_results_simp <;> rfl

set_option maxRecDepth 8192 in
set_option maxHeartbeats 40000000 in
/-- The second argument is never written. -/
theorem eval_arg1 (m : (ℓ : Loc nD τ sig) → Buf (Elt F) ℓ) (c : Dev nD) :
    StableHlo.after ops (fun b' => m (c, b')) (Proc.devRef .tc main_arg1) = m ((c.tc : Thread nD τ).loc main_arg1) := by
  after_results_simp <;> rfl

end Cert.ReferenceIdeal.RefEval

end
-- ==== Proof.RefEval94.lean ====
import proofs.«155842_j2808908612055_2_alg».proof.Proof.RefRunP
import proofs.«155842_j2808908612055_2_alg».proof.Proof.RefReadP

/-!
  The reference program's run, read back: the class image's buffer.

  The run leaves every buffer at the operations' valuation of it (`StableHlo.after ops`); read at a buffer that
  valuation is, operation by operation, the stages' composed term of the arguments.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

set_option maxRecDepth 8192 in
set_option maxHeartbeats 40000000 in
/-- The class image's buffer. -/
theorem eval_v94 (m : (ℓ : Loc nD τ sig) → Buf (Elt F) ℓ) (c : Dev nD) :
    StableHlo.after ops (fun b' => m (c, b')) (Proc.devRef .tc main_v94)
      = ReadP.val_main_v94 (F := F) (m ((c.tc : Thread nD τ).loc main_arg1)) := by
  refine Eq.trans ?_ (ReadP.val_main_v94_eq _)
  after_results_simp <;> rfl

end Cert.ReferenceIdeal.RefEval

end
-- ==== Proof.RefEvalC0.lean ====
import proofs.«155842_j2808908612055_2_alg».proof.Proof.RefRunP
import proofs.«155842_j2808908612055_2_alg».proof.Proof.RefReadP

/-!
  The reference program's run, read back: class 0's loss, up to the selection between zero and the quotient.

  The run leaves every buffer at the operations' valuation of it (`StableHlo.after ops`); read at a buffer that
  valuation is, operation by operation, the stages' composed term of the arguments.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 40000000 in
/-- "The class's count is zero", as the operations compute it. -/
theorem eval_v15 : StableHlo.after ops (fun b' => m (c, b')) (Proc.devRef .tc main_v15)
    = ReadP.val_main_v15 (F := F) (m (c, Proc.devRef .tc main_arg1)) := by
  after_results_simp <;> rfl

set_option maxRecDepth 8192 in
set_option maxHeartbeats 40000000 in
/-- The class's sum over the larger of its count and one, as the operations compute it. -/
theorem eval_v16 : StableHlo.after ops (fun b' => m (c, b')) (Proc.devRef .tc main_v16)
    = ReadP.val_main_v16 (F := F) (m (c, Proc.devRef .tc main_arg0)) (m (c, Proc.devRef .tc main_arg1)) := by
  after_results_simp <;> rfl

set_option maxRecDepth 8192 in
set_option maxHeartbeats 40000000 in
/-- The zero the selection falls back to. -/
theorem eval_call2_v0 : StableHlo.after ops (fun b' => m (c, b')) (Proc.devRef .tc main_call2_v0)
    = ReadP.val_main_call2_v0 (F := F) := by
  after_results_simp <;> rfl

set_option maxRecDepth 8192 in
set_option maxHeartbeats 40000000 in
/-- The selection, one operation deep: over the three buffers it reads. -/
theorem step_v17 : StableHlo.after ops (fun b' => m (c, b')) (Proc.devRef .tc main_v17)
    = (TRef.of main_v17 : TRef sig ⟨S_, .f32⟩).toBuf (select
        ((TRef.of main_v15 : TRef sig ⟨S_, .i1⟩).ofBuf (StableHlo.after ops (fun b' => m (c, b')) (Proc.devRef .tc main_v15)))
        ((TRef.of main_call2_v0 : TRef sig ⟨S_, .f32⟩).ofBuf (StableHlo.after ops (fun b' => m (c, b')) (Proc.devRef .tc main_call2_v0)))
        ((TRef.of main_v16 : TRef sig ⟨S_, .f32⟩).ofBuf (StableHlo.after ops (fun b' => m (c, b')) (Proc.devRef .tc main_v16)))) := by
  after_results_simp

end Cert.ReferenceIdeal.RefEval

end
-- ==== Proof.RefEvalC1.lean ====
import proofs.«155842_j2808908612055_2_alg».proof.Proof.RefRunP
import proofs.«155842_j2808908612055_2_alg».proof.Proof.RefReadP

/-!
  The reference program's run, read back: class 1's loss, up to the selection between zero and the quotient.

  The run leaves every buffer at the operations' valuation of it (`StableHlo.after ops`); read at a buffer that
  valuation is, operation by operation, the stages' composed term of the arguments.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 40000000 in
/-- "The class's count is zero", as the operations compute it. -/
theorem eval_v31 : StableHlo.after ops (fun b' => m (c, b')) (Proc.devRef .tc main_v31)
    = ReadP.val_main_v31 (F := F) (m (c, Proc.devRef .tc main_arg1)) := by
  after_results_simp <;> rfl

set_option maxRecDepth 8192 in
set_option maxHeartbeats 40000000 in
/-- The class's sum over the larger of its count and one, as the operations compute it. -/
theorem eval_v32 : StableHlo.after ops (fun b' => m (c, b')) (Proc.devRef .tc main_v32)
    = ReadP.val_main_v32 (F := F) (m (c, Proc.devRef .tc main_arg0)) (m (c, Proc.devRef .tc main_arg1)) := by
  after_results_simp <;> rfl

set_option maxRecDepth 8192 in
set_option maxHeartbeats 40000000 in
/-- The zero the selection falls back to. -/
theorem eval_call5_v0 : StableHlo.after ops (fun b' => m (c, b')) (Proc.devRef .tc main_call5_v0)
    = ReadP.val_main_call5_v0 (F := F) := by
  after_results_simp <;> rfl

set_option maxRecDepth 8192 in
set_option maxHeartbeats 40000000 in
/-- The selection, one operation deep: over the three buffers it reads. -/
theorem step_v33 : StableHlo.after ops (fun b' => m (c, b')) (Proc.devRef .tc main_v33)
    = (TRef.of main_v33 : TRef sig ⟨S_, .f32⟩).toBuf (select
        ((TRef.of main_v31 : TRef sig ⟨S_, .i1⟩).ofBuf (StableHlo.after ops (fun b' => m (c, b')) (Proc.devRef .tc main_v31)))
        ((TRef.of main_call5_v0 : TRef sig ⟨S_, .f32⟩).ofBuf (StableHlo.after ops (fun b' => m (c, b')) (Proc.devRef .tc main_call5_v0)))
        ((TRef.of main_v32 : TRef sig ⟨S_, .f32⟩).ofBuf (StableHlo.after ops (fun b' => m (c, b')) (Proc.devRef .tc main_v32)))) := by
  after_results_simp

end Cert.ReferenceIdeal.RefEval

end
-- ==== Proof.RefEvalC2.lean ====
import proofs.«155842_j2808908612055_2_alg».proof.Proof.RefRunP
import proofs.«155842_j2808908612055_2_alg».proof.Proof.RefReadP

/-!
  The reference program's run, read back: class 2's loss, up to the selection between zero and the quotient.

  The run leaves every buffer at the operations' valuation of it (`StableHlo.after ops`); read at a buffer that
  valuation is, operation by operation, the stages' composed term of the arguments.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 40000000 in
/-- "The class's count is zero", as the operations compute it. -/
theorem eval_v47 : StableHlo.after ops (fun b' => m (c, b')) (Proc.devRef .tc main_v47)
    = ReadP.val_main_v47 (F := F) (m (c, Proc.devRef .tc main_arg1)) := by
  after_results_simp <;> rfl

set_option maxRecDepth 8192 in
set_option maxHeartbeats 40000000 in
/-- The class's sum over the larger of its count and one, as the operations compute it. -/
theorem eval_v48 : StableHlo.after ops (fun b' => m (c, b')) (Proc.devRef .tc main_v48)
    = ReadP.val_main_v48 (F := F) (m (c, Proc.devRef .tc main_arg0)) (m (c, Proc.devRef .tc main_arg1)) := by
  after_results_simp <;> rfl

set_option maxRecDepth 8192 in
set_option maxHeartbeats 40000000 in
/-- The zero the selection falls back to. -/
theorem eval_call8_v0 : StableHlo.after ops (fun b' => m (c, b')) (Proc.devRef .tc main_call8_v0)
    = ReadP.val_main_call8_v0 (F := F) := by
  after_results_simp <;> rfl

set_option maxRecDepth 8192 in
set_option maxHeartbeats 40000000 in
/-- The selection, one operation deep: over the three buffers it reads. -/
theorem step_v49 : StableHlo.after ops (fun b' => m (c, b')) (Proc.devRef .tc main_v49)
    = (TRef.of main_v49 : TRef sig ⟨S_, .f32⟩).toBuf (select
        ((TRef.of main_v47 : TRef sig ⟨S_, .i1⟩).ofBuf (StableHlo.after ops (fun b' => m (c, b')) (Proc.devRef .tc main_v47)))
        ((TRef.of main_call8_v0 : TRef sig ⟨S_, .f32⟩).ofBuf (StableHlo.after ops (fun b' => m (c, b')) (Proc.devRef .tc main_call8_v0)))
        ((TRef.of main_v48 : TRef sig ⟨S_, .f32⟩).ofBuf (StableHlo.after ops (fun b' => m (c, b')) (Proc.devRef .tc main_v48)))) := by
  after_results_simp

end Cert.ReferenceIdeal.RefEval

end
-- ==== Proof.RefEvalC3.lean ====
import proofs.«155842_j2808908612055_2_alg».proof.Proof.RefRunP
import proofs.«155842_j2808908612055_2_alg».proof.Proof.RefReadP

/-!
  The reference program's run, read back: class 3's loss, up to the selection between zero and the quotient.

  The run leaves every buffer at the operations' valuation of it (`StableHlo.after ops`); read at a buffer that
  valuation is, operation by operation, the stages' composed term of the arguments.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 40000000 in
/-- "The class's count is zero", as the operations compute it. -/
theorem eval_v63 : StableHlo.after ops (fun b' => m (c, b')) (Proc.devRef .tc main_v63)
    = ReadP.val_main_v63 (F := F) (m (c, Proc.devRef .tc main_arg1)) := by
  after_results_simp <;> rfl

set_option maxRecDepth 8192 in
set_option maxHeartbeats 40000000 in
/-- The class's sum over the larger of its count and one, as the operations compute it. -/
theorem eval_v64 : StableHlo.after ops (fun b' => m (c, b')) (Proc.devRef .tc main_v64)
    = ReadP.val_main_v64 (F := F) (m (c, Proc.devRef .tc main_arg0)) (m (c, Proc.devRef .tc main_arg1)) := by
  after_results_simp <;> rfl

set_option maxRecDepth 8192 in
set_option maxHeartbeats 40000000 in
/-- The zero the selection falls back to. -/
theorem eval_call11_v0 : StableHlo.after ops (fun b' => m (c, b')) (Proc.devRef .tc main_call11_v0)
    = ReadP.val_main_call11_v0 (F := F) := by
  after_results_simp <;> rfl

set_option maxRecDepth 8192 in
set_option maxHeartbeats 40000000 in
/-- The selection, one operation deep: over the three buffers it reads. -/
theorem step_v65 : StableHlo.after ops (fun b' => m (c, b')) (Proc.devRef .tc main_v65)
    = (TRef.of main_v65 : TRef sig ⟨S_, .f32⟩).toBuf (select
        ((TRef.of main_v63 : TRef sig ⟨S_, .i1⟩).ofBuf (StableHlo.after ops (fun b' => m (c, b')) (Proc.devRef .tc main_v63)))
        ((TRef.of main_call11_v0 : TRef sig ⟨S_, .f32⟩).ofBuf (StableHlo.after ops (fun b' => m (c, b')) (Proc.devRef .tc main_call11_v0)))
        ((TRef.of main_v64 : TRef sig ⟨S_, .f32⟩).ofBuf (StableHlo.after ops (fun b' => m (c, b')) (Proc.devRef .tc main_v64)))) := by
  after_results_simp

end Cert.ReferenceIdeal.RefEval

end
-- ==== Proof.RefEvalC4.lean ====
import proofs.«155842_j2808908612055_2_alg».proof.Proof.RefRunP
import proofs.«155842_j2808908612055_2_alg».proof.Proof.RefReadP

/-!
  The reference program's run, read back: class 4's loss, up to the selection between zero and the quotient.

  The run leaves every buffer at the operations' valuation of it (`StableHlo.after ops`); read at a buffer that
  valuation is, operation by operation, the stages' composed term of the arguments.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 40000000 in
/-- "The class's count is zero", as the operations compute it. -/
theorem eval_v79 : StableHlo.after ops (fun b' => m (c, b')) (Proc.devRef .tc main_v79)
    = ReadP.val_main_v79 (F := F) (m (c, Proc.devRef .tc main_arg1)) := by
  after_results_simp <;> rfl

set_option maxRecDepth 8192 in
set_option maxHeartbeats 40000000 in
/-- The class's sum over the larger of its count and one, as the operations compute it. -/
theorem eval_v80 : StableHlo.after ops (fun b' => m (c, b')) (Proc.devRef .tc main_v80)
    = ReadP.val_main_v80 (F := F) (m (c, Proc.devRef .tc main_arg0)) (m (c, Proc.devRef .tc main_arg1)) := by
  after_results_simp <;> rfl

set_option maxRecDepth 8192 in
set_option maxHeartbeats 40000000 in
/-- The zero the selection falls back to. -/
theorem eval_call14_v0 : StableHlo.after ops (fun b' => m (c, b')) (Proc.devRef .tc main_call14_v0)
    = ReadP.val_main_call14_v0 (F := F) := by
  after_results_simp <;> rfl

set_option maxRecDepth 8192 in
set_option maxHeartbeats 40000000 in
/-- The selection, one operation deep: over the three buffers it reads. -/
theorem step_v81 : StableHlo.after ops (fun b' => m (c, b')) (Proc.devRef .tc main_v81)
    = (TRef.of main_v81 : TRef sig ⟨S_, .f32⟩).toBuf (select
        ((TRef.of main_v79 : TRef sig ⟨S_, .i1⟩).ofBuf (StableHlo.after ops (fun b' => m (c, b')) (Proc.devRef .tc main_v79)))
        ((TRef.of main_call14_v0 : TRef sig ⟨S_, .f32⟩).ofBuf (StableHlo.after ops (fun b' => m (c, b')) (Proc.devRef .tc main_call14_v0)))
        ((TRef.of main_v80 : TRef sig ⟨S_, .f32⟩).ofBuf (StableHlo.after ops (fun b' => m (c, b')) (Proc.devRef .tc main_v80)))) := by
  after_results_simp

end Cert.ReferenceIdeal.RefEval

end
-- ==== Proof.RefEvalW.lean ====
import proofs.«155842_j2808908612055_2_alg».proof.Proof.RefEvalC0
import proofs.«155842_j2808908612055_2_alg».proof.Proof.RefEvalC1
import proofs.«155842_j2808908612055_2_alg».proof.Proof.RefEvalC2
import proofs.«155842_j2808908612055_2_alg».proof.Proof.RefEvalC3
import proofs.«155842_j2808908612055_2_alg».proof.Proof.RefEvalC4

/-!
  The reference program's run, read back: each class's selection between zero and the quotient.

  The selection's three operands are compared as wholes, never opened: to decide "is this condition one?" would be
  to run the count's integer sum over the whole image.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

/-- The selection of class 0, for ANY three operands: the buffers' typed views are the operands themselves. -/
theorem strip_v17 (C : IVec S_ 1) (B D : FVec F S_ .f32) :
    (TRef.of main_v17 : TRef sig ⟨S_, .f32⟩).toBuf (Val := Elt F) (select ((TRef.of main_v15 : TRef sig ⟨S_, .i1⟩).ofBuf (Val := Elt F) C)
      ((TRef.of main_call2_v0 : TRef sig ⟨S_, .f32⟩).ofBuf (Val := Elt F) B) ((TRef.of main_v16 : TRef sig ⟨S_, .f32⟩).ofBuf (Val := Elt F) D))
    = select C B D := rfl

/-- Class 0's selection, as the operations compute it. -/
theorem eval_v17 (m : (ℓ : Loc nD τ sig) → Buf (Elt F) ℓ) (c : Dev nD) :
    StableHlo.after ops (fun b' => m (c, b')) (Proc.devRef .tc main_v17)
      = ReadP.val_main_v17 (F := F) (m (c, Proc.devRef .tc main_arg0)) (m (c, Proc.devRef .tc main_arg1)) := by
  rw [step_v17, eval_v15, eval_v16, eval_call2_v0]
  refine (strip_v17 _ _ _).trans ?_
  unfold ReadP.val_main_v17
  rfl

/-- The selection of class 1, for ANY three operands: the buffers' typed views are the operands themselves. -/
theorem strip_v33 (C : IVec S_ 1) (B D : FVec F S_ .f32) :
    (TRef.of main_v33 : TRef sig ⟨S_, .f32⟩).toBuf (Val := Elt F) (select ((TRef.of main_v31 : TRef sig ⟨S_, .i1⟩).ofBuf (Val := Elt F) C)
      ((TRef.of main_call5_v0 : TRef sig ⟨S_, .f32⟩).ofBuf (Val := Elt F) B) ((TRef.of main_v32 : TRef sig ⟨S_, .f32⟩).ofBuf (Val := Elt F) D))
    = select C B D := rfl

/-- Class 1's selection, as the operations compute it. -/
theorem eval_v33 (m : (ℓ : Loc nD τ sig) → Buf (Elt F) ℓ) (c : Dev nD) :
    StableHlo.after ops (fun b' => m (c, b')) (Proc.devRef .tc main_v33)
      = ReadP.val_main_v33 (F := F) (m (c, Proc.devRef .tc main_arg0)) (m (c, Proc.devRef .tc main_arg1)) := by
  rw [step_v33, eval_v31, eval_v32, eval_call5_v0]
  refine (strip_v33 _ _ _).trans ?_
  unfold ReadP.val_main_v33
  rfl

/-- The selection of class 2, for ANY three operands: the buffers' typed views are the operands themselves. -/
theorem strip_v49 (C : IVec S_ 1) (B D : FVec F S_ .f32) :
    (TRef.of main_v49 : TRef sig ⟨S_, .f32⟩).toBuf (Val := Elt F) (select ((TRef.of main_v47 : TRef sig ⟨S_, .i1⟩).ofBuf (Val := Elt F) C)
      ((TRef.of main_call8_v0 : TRef sig ⟨S_, .f32⟩).ofBuf (Val := Elt F) B) ((TRef.of main_v48 : TRef sig ⟨S_, .f32⟩).ofBuf (Val := Elt F) D))
    = select C B D := rfl

/-- Class 2's selection, as the operations compute it. -/
theorem eval_v49 (m : (ℓ : Loc nD τ sig) → Buf (Elt F) ℓ) (c : Dev nD) :
    StableHlo.after ops (fun b' => m (c, b')) (Proc.devRef .tc main_v49)
      = ReadP.val_main_v49 (F := F) (m (c, Proc.devRef .tc main_arg0)) (m (c, Proc.devRef .tc main_arg1)) := by
  rw [step_v49, eval_v47, eval_v48, eval_call8_v0]
  refine (strip_v49 _ _ _).trans ?_
  unfold ReadP.val_main_v49
  rfl

/-- The selection of class 3, for ANY three operands: the buffers' typed views are the operands themselves. -/
theorem strip_v65 (C : IVec S_ 1) (B D : FVec F S_ .f32) :
    (TRef.of main_v65 : TRef sig ⟨S_, .f32⟩).toBuf (Val := Elt F) (select ((TRef.of main_v63 : TRef sig ⟨S_, .i1⟩).ofBuf (Val := Elt F) C)
      ((TRef.of main_call11_v0 : TRef sig ⟨S_, .f32⟩).ofBuf (Val := Elt F) B) ((TRef.of main_v64 : TRef sig ⟨S_, .f32⟩).ofBuf (Val := Elt F) D))
    = select C B D := rfl

/-- Class 3's selection, as the operations compute it. -/
theorem eval_v65 (m : (ℓ : Loc nD τ sig) → Buf (Elt F) ℓ) (c : Dev nD) :
    StableHlo.after ops (fun b' => m (c, b')) (Proc.devRef .tc main_v65)
      = ReadP.val_main_v65 (F := F) (m (c, Proc.devRef .tc main_arg0)) (m (c, Proc.devRef .tc main_arg1)) := by
  rw [step_v65, eval_v63, eval_v64, eval_call11_v0]
  refine (strip_v65 _ _ _).trans ?_
  unfold ReadP.val_main_v65
  rfl

/-- The selection of class 4, for ANY three operands: the buffers' typed views are the operands themselves. -/
theorem strip_v81 (C : IVec S_ 1) (B D : FVec F S_ .f32) :
    (TRef.of main_v81 : TRef sig ⟨S_, .f32⟩).toBuf (Val := Elt F) (select ((TRef.of main_v79 : TRef sig ⟨S_, .i1⟩).ofBuf (Val := Elt F) C)
      ((TRef.of main_call14_v0 : TRef sig ⟨S_, .f32⟩).ofBuf (Val := Elt F) B) ((TRef.of main_v80 : TRef sig ⟨S_, .f32⟩).ofBuf (Val := Elt F) D))
    = select C B D := rfl

/-- Class 4's selection, as the operations compute it. -/
theorem eval_v81 (m : (ℓ : Loc nD τ sig) → Buf (Elt F) ℓ) (c : Dev nD) :
    StableHlo.after ops (fun b' => m (c, b')) (Proc.devRef .tc main_v81)
      = ReadP.val_main_v81 (F := F) (m (c, Proc.devRef .tc main_arg0)) (m (c, Proc.devRef .tc main_arg1)) := by
  rw [step_v81, eval_v79, eval_v80, eval_call14_v0]
  refine (strip_v81 _ _ _).trans ?_
  unfold ReadP.val_main_v81
  rfl

end Cert.ReferenceIdeal.RefEval

end
-- ==== Proof.RefEval87.lean ====
import proofs.«155842_j2808908612055_2_alg».proof.Proof.RefEvalW

/-!
  The reference program's run, read back: the total's buffer.

  The run leaves every buffer at the operations' valuation of it (`StableHlo.after ops`); read at a buffer that
  valuation is, operation by operation, the stages' composed term of the arguments.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

set_option maxRecDepth 8192 in
set_option maxHeartbeats 40000000 in
/-- The total, several operations deep: over the five selections' buffers. -/
theorem step_v87 (m : (ℓ : Loc nD τ sig) → Buf (Elt F) ℓ) (c : Dev nD) :
    StableHlo.after ops (fun b' => m (c, b')) (Proc.devRef .tc main_v87)
      = addf (addf (addf (addf (addf (constant S_ .f32 0x00000000#32) (mulf (StableHlo.after ops (fun b' => m (c, b')) (Proc.devRef .tc main_v17)) (constant S_ .f32 0x3E4CCCCD#32))) (mulf (StableHlo.after ops (fun b' => m (c, b')) (Proc.devRef .tc main_v33)) (constant S_ .f32 0x3E4CCCCD#32))) (mulf (StableHlo.after ops (fun b' => m (c, b')) (Proc.devRef .tc main_v49)) (constant S_ .f32 0x3E4CCCCD#32))) (mulf (StableHlo.after ops (fun b' => m (c, b')) (Proc.devRef .tc main_v65)) (constant S_ .f32 0x3E4CCCCD#32))) (mulf (StableHlo.after ops (fun b' => m (c, b')) (Proc.devRef .tc main_v81)) (constant S_ .f32 0x3E4CCCCD#32)) := by
  after_results_simp

/-- The total's buffer. -/
theorem eval_v87 (m : (ℓ : Loc nD τ sig) → Buf (Elt F) ℓ) (c : Dev nD) :
    StableHlo.after ops (fun b' => m (c, b')) (Proc.devRef .tc main_v87)
      = ReadP.val_main_v87 (F := F) (m ((c.tc : Thread nD τ).loc main_arg0)) (m ((c.tc : Thread nD τ).loc main_arg1)) := by
  rw [step_v87, eval_v17, eval_v33, eval_v49, eval_v65, eval_v81]
  show _ = ReadP.val_main_v87 (F := F) (m (c, Proc.devRef .tc main_arg0)) (m (c, Proc.devRef .tc main_arg1))
  unfold ReadP.val_main_v87 ReadP.val_main_v86 ReadP.val_main_v85 ReadP.val_main_v84 ReadP.val_main_v83 ReadP.val_main_v82 ReadP.val_main_v66 ReadP.val_main_v50 ReadP.val_main_v34 ReadP.val_main_v18 ReadP.val_main_cst_49 ReadP.val_main_cst_8 ReadP.val_main_cst_18 ReadP.val_main_cst_28 ReadP.val_main_cst_38 ReadP.val_main_cst_48
  rfl

end Cert.ReferenceIdeal.RefEval

end
-- ==== Proof.RefEval100.lean ====
import proofs.«155842_j2808908612055_2_alg».proof.Proof.RefEvalW

/-!
  The reference program's run, read back: the five losses' buffer.

  The run leaves every buffer at the operations' valuation of it (`StableHlo.after ops`); read at a buffer that
  valuation is, operation by operation, the stages' composed term of the arguments.
-/

noncomputable section

namespace Cert.ReferenceIdeal.RefEval

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

/-- `nary` over a LITERAL family of five references: the result with each operand's contents at its own reference
    (the library has this for four). -/
theorem nary5_result' {x a b d e y : Ref sig .tc}
    (f : ((k : Fin 5) → ((![x, a, b, d, e] : Fin 5 → Ref sig .tc) k).ty.Contents (Elt F)) → y.ty.Contents (Elt F)) (hxs hy)
    (G : Valuation τ sig (Elt F)) :
    (nary (τ := τ) ![x, a, b, d, e] y f hxs hy).result G (no_index (Proc.devRef .tc y))
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) := by
  show (nary (τ := τ) ![x, a, b, d, e] y f hxs hy).result G (Proc.devRef .tc y) = _
  rw [nary_result]; congr 1; funext k; fin_cases k <;> rfl

set_option maxRecDepth 8192 in
set_option maxHeartbeats 40000000 in
/-- The five losses joined, several operations deep: over the five selections' buffers. -/
theorem step_v100 (m : (ℓ : Loc nD τ sig) → Buf (Elt F) ℓ) (c : Dev nD) :
    StableHlo.after ops (fun b' => m (c, b')) (Proc.devRef .tc main_v100)
      = concatenate S5 0 [⟨S1, broadcastInDim S1 ![] bcast_S_S1 (mulf (StableHlo.after ops (fun b' => m (c, b')) (Proc.devRef .tc main_v17)) (constant S_ .f32 0x3E4CCCCD#32))⟩,
          ⟨S1, broadcastInDim S1 ![] bcast_S_S1 (mulf (StableHlo.after ops (fun b' => m (c, b')) (Proc.devRef .tc main_v33)) (constant S_ .f32 0x3E4CCCCD#32))⟩,
          ⟨S1, broadcastInDim S1 ![] bcast_S_S1 (mulf (StableHlo.after ops (fun b' => m (c, b')) (Proc.devRef .tc main_v49)) (constant S_ .f32 0x3E4CCCCD#32))⟩,
          ⟨S1, broadcastInDim S1 ![] bcast_S_S1 (mulf (StableHlo.after ops (fun b' => m (c, b')) (Proc.devRef .tc main_v65)) (constant S_ .f32 0x3E4CCCCD#32))⟩,
          ⟨S1, broadcastInDim S1 ![] bcast_S_S1 (mulf (StableHlo.after ops (fun b' => m (c, b')) (Proc.devRef .tc main_v81)) (constant S_ .f32 0x3E4CCCCD#32))⟩] concatenates_S1_S1_S1_S1_S1_S5_d0 := by
  simp (disch := decide) only [after_cons, after_nil,
      nullary_result', unary_result', binary_result', ternary_result', quaternary_result', reshape_result', nary4_result', nary5_result',
      unaryIndexed_result', binaryIndexed_result',
      nullary_result_ne', unary_result_ne', binary_result_ne', ternary_result_ne', quaternary_result_ne', reshape_result_ne',
      nary_result_ne', unaryIndexed_result_ne', binaryIndexed_result_ne']
  rfl

/-- The five losses' buffer. -/
theorem eval_v100 (m : (ℓ : Loc nD τ sig) → Buf (Elt F) ℓ) (c : Dev nD) :
    StableHlo.after ops (fun b' => m (c, b')) (Proc.devRef .tc main_v100)
      = ReadP.val_main_v100 (F := F) (m ((c.tc : Thread nD τ).loc main_arg0)) (m ((c.tc : Thread nD τ).loc main_arg1)) := by
  rw [step_v100, eval_v17, eval_v33, eval_v49, eval_v65, eval_v81]
  show _ = ReadP.val_main_v100 (F := F) (m (c, Proc.devRef .tc main_arg0)) (m (c, Proc.devRef .tc main_arg1))
  unfold ReadP.val_main_v100 ReadP.val_main_v95 ReadP.val_main_v96 ReadP.val_main_v97 ReadP.val_main_v98 ReadP.val_main_v99 ReadP.val_main_v82 ReadP.val_main_v66 ReadP.val_main_v50 ReadP.val_main_v34 ReadP.val_main_v18 ReadP.val_main_cst_8 ReadP.val_main_cst_18 ReadP.val_main_cst_28 ReadP.val_main_cst_38 ReadP.val_main_cst_48
  rfl

end Cert.ReferenceIdeal.RefEval

end
-- ==== Proof.lean ====
/-
  The certificate's assembly.

  Both programs compute, from a predicted image `a` and a real image `b` (16 × 1 × 1024 × 1024 floats), for each of
  five closed ranges of `b`'s values: the number `n` of elements of `b` in the range, the sum `s` of `|a − b|` over
  those elements, and the loss `0.2 · (0 if n = 0 else s / max(n, 1))`; then the five losses' total, the five losses,
  and the class image `2·cls/4 − 1` where `cls` is the last range holding the element. At the ideal instance
    * the kernel program totals each class row tile by row tile on a 16 × 2 grid into per-batch accumulator lanes
      (one lane per class, through one-hot factors) and sums the lanes over the batches on the host, counting in floats;
    * the reference sums the whole image at once and counts in 32-bit integers.
  Sums of extended reals regroup freely (addition is commutative and associative, and `0 · x = 0`, `1 · x = x` hold for
  every extended real, so no finiteness is used), and an integer count below 2³¹ reads back as the same natural: the
  two sides are the same three functions of the images (LossSpec.lean), which are the witnesses below.
  The frames of the two kernel programs are the generated ones; the reference's frame is its run with the results
  dropped. The idealization rewrote nothing, so `preserves` is `True`.
-/
import proofs.«155842_j2808908612055_2_alg».proof.Defs
import proofs.«155842_j2808908612055_2_alg».proof.Proof.Gen.Kernel
import proofs.«155842_j2808908612055_2_alg».proof.Proof.Gen.Kernel.Skeleton
import proofs.«155842_j2808908612055_2_alg».proof.Proof.Gen.Kernel.Launch
import proofs.«155842_j2808908612055_2_alg».proof.Proof.Gen.Kernel.Points
import proofs.«155842_j2808908612055_2_alg».proof.Proof.Gen.Kernel.Frame
import proofs.«155842_j2808908612055_2_alg».proof.Proof.Gen.KernelIdeal
import proofs.«155842_j2808908612055_2_alg».proof.Proof.Gen.KernelIdeal.Skeleton
import proofs.«155842_j2808908612055_2_alg».proof.Proof.Gen.KernelIdeal.Launch
import proofs.«155842_j2808908612055_2_alg».proof.Proof.Gen.KernelIdeal.Points
import proofs.«155842_j2808908612055_2_alg».proof.Proof.Gen.KernelIdeal.Frame
import proofs.«155842_j2808908612055_2_alg».proof.Proof.Gen.ReferenceIdeal
import proofs.«155842_j2808908612055_2_alg».proof.Proof.Gen.Pre_finite_inputs
import proofs.«155842_j2808908612055_2_alg».proof.Proof.KernelValue
import proofs.«155842_j2808908612055_2_alg».proof.Proof.RefValue
import proofs.«155842_j2808908612055_2_alg».proof.Proof.RefEvalArgs
import proofs.«155842_j2808908612055_2_alg».proof.Proof.RefEval94
import proofs.«155842_j2808908612055_2_alg».proof.Proof.RefEval87
import proofs.«155842_j2808908612055_2_alg».proof.Proof.RefEval100
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c =>
      ⟨(h c Cert.ReferenceIdeal.main_arg0).trans (Cert.ReferenceIdeal.RefEval.eval_arg0 m c),
       (h c Cert.ReferenceIdeal.main_arg1).trans (Cert.ReferenceIdeal.RefEval.eval_arg1 m c)⟩)
    (Cert.ReferenceIdeal.ValueP.run (F := Ideal) m ρ)

theorem preserves : Cert.preserves_Kernel_KernelIdeal := trivial

/-- Both programs end with the specification's three functions of the images they agree on. -/
theorem algebraic : Cert.algebraic_KernelIdeal_ReferenceIdeal := by
  intro m ρ m' ρ' _ hagree
  refine ⟨fun c => lossTot (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => lossVec (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => maskImg (m ((c.tc : Thread Cert.KernelIdeal.nD Cert.KernelIdeal.τ).loc Cert.KernelIdeal.main_arg1)), ?_, ?_⟩
  · refine (θ_run Cert.KernelIdeal.defs _ _).mono (fun _ h c => ?_) (Cert.KernelIdeal.Tail.run (F := Ideal) m ρ)
    obtain ⟨h14, h13, h2, ha0, ha1⟩ := h c
    refine ⟨h14.trans ?_, h13.trans ?_, h2.trans ?_, ha0, ha1⟩
    · rw [Cert.KernelIdeal.Value.total_eq, Cert.KernelIdeal.Gen.V_main_arg0, Cert.KernelIdeal.Gen.V_main_arg1]
    · rw [Cert.KernelIdeal.Value.losses_eq, Cert.KernelIdeal.Gen.V_main_arg0, Cert.KernelIdeal.Gen.V_main_arg1]
    · rw [Cert.KernelIdeal.Value.G2_eq, Cert.KernelIdeal.Gen.V_main_arg1]
  · refine (θ_run Cert.ReferenceIdeal.defs _ _).mono (fun _ h c => ?_) (Cert.ReferenceIdeal.ValueP.run (F := Ideal) m' ρ')
    refine ⟨((h c Cert.ReferenceIdeal.main_v87).trans (Cert.ReferenceIdeal.RefEval.eval_v87 m' c)).trans ?_,
      ((h c Cert.ReferenceIdeal.main_v100).trans (Cert.ReferenceIdeal.RefEval.eval_v100 m' c)).trans ?_,
      ((h c Cert.ReferenceIdeal.main_v94).trans (Cert.ReferenceIdeal.RefEval.eval_v94 m' c)).trans ?_,
      (h c Cert.ReferenceIdeal.main_arg0).trans (Cert.ReferenceIdeal.RefEval.eval_arg0 m' c),
      (h c Cert.ReferenceIdeal.main_arg1).trans (Cert.ReferenceIdeal.RefEval.eval_arg1 m' c)⟩
    · rw [Cert.ReferenceIdeal.RefValue.total_eq, (hagree c).1, (hagree c).2]
    · rw [Cert.ReferenceIdeal.RefValue.vec_eq, (hagree c).1, (hagree c).2]
    · rw [Cert.ReferenceIdeal.RefValue.mask_eq, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
